-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512x32x32 : Shape := ⟨4, ![32, 512, 32, 32]⟩
abbrev S32x512 : Shape := ⟨2, ![32, 512]⟩
abbrev S32 : Shape := ⟨1, ![32]⟩
abbrev S512x32 : Shape := ⟨2, ![512, 32]⟩
abbrev S512 : Shape := ⟨1, ![512]⟩
abbrev S_ : Shape := ⟨0, ![]⟩

class Facts : Prop where
  bcast_S_S32x512x32x32 : S_.BroadcastsInDim S32x512x32x32 (![] : Fin 0 → Fin S32x512x32x32.rank)
  reducesTo_S32x512x32x32_S_d0_1_2_3 : S32x512x32x32.ReducesTo [0, 1, 2, 3] S_
  h_S_ : 0 < S_.numel
  bcast_S_S32x512 : S_.BroadcastsInDim S32x512 (![] : Fin 0 → Fin S32x512.rank)
  reducesTo_S32x512_S_d0_1 : S32x512.ReducesTo [0, 1] S_
  bcast_S_S32 : S_.BroadcastsInDim S32 (![] : Fin 0 → Fin S32.rank)
  reducesTo_S32_S_d0 : S32.ReducesTo [0] S_
  bcast_S_S512x32 : S_.BroadcastsInDim S512x32 (![] : Fin 0 → Fin S512x32.rank)
  reducesTo_S512x32_S_d0_1 : S512x32.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S512 .f32) (main_v13 : IVec S_ 1) (main_v16 : IVec S512x32 1) : IVec S_ 1 :=
  let main_c_5 : IVec S_ 1 := constantI S_ 1 1#1
  let main_v17 : IVec S_ 1 := (fun x v => Host.reduce IntOp.andi x v reducesTo_S512x32_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  main_v23

def fn {F : FTy → Type} [FloatOps F] (main_arg0 : FVec F S32x512x32x32 .f32) (main_arg1 : FVec F S32x512 .f32) (main_arg2 : FVec F S32 .f32) (main_arg3 : FVec F S512x32 .f32) (main_arg4 : FVec F S512 .f32) : IVec S_ 1 :=
  let main_v0 : FVec F S32x512x32x32 .f32 := Host.absf main_arg0
  let main_cst : FVec F S_ .f32 := constant S_ .f32 0x7F800000#32
  let main_v1 : FVec F S32x512x32x32 .f32 := broadcastInDim S32x512x32x32 ![] bcast_S_S32x512x32x32 main_cst
  let main_v2 : IVec S32x512x32x32 1 := cmpf .olt main_v0 main_v1
  let main_c : IVec S_ 1 := constantI S_ 1 1#1
  let main_v3 : IVec S_ 1 := (fun x v => Host.reduce IntOp.andi x v reducesTo_S32x512x32x32_S_d0_1_2_3 h_S_) main_v2 main_c
  let main_v4 : FVec F S32x512 .f32 := Host.absf main_arg1
  let main_cst_0 : FVec F S_ .f32 := constant S_ .f32 0x7F800000#32
  let main_v5 : FVec F S32x512 .f32 := broadcastInDim S32x512 ![] bcast_S_S32x512 main_cst_0
  let main_v6 : IVec S32x512 1 := cmpf .olt main_v4 main_v5
  let main_c_1 : IVec S_ 1 := constantI S_ 1 1#1
  let main_v7 : IVec S_ 1 := (fun x v => Host.reduce IntOp.andi x v reducesTo_S32x512_S_d0_1 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S512x32 .f32 := Host.absf main_arg3
  let main_cst_4 : FVec F S_ .f32 := constant S_ .f32 0x7F800000#32
  let main_v15 : FVec F S512x32 .f32 := broadcastInDim S512x32 ![] bcast_S_S512x32 main_cst_4
  let main_v16 : IVec S512x32 1 := cmpf .olt main_v14 main_v15
  fn_part1 (F := F) main_arg4 main_v13 main_v16
-- ==== Kernel.lean ====
abbrev S32x512x32x32 : Shape := ⟨4, ![32, 512, 32, 32]⟩
abbrev S32x512 : Shape := ⟨2, ![32, 512]⟩
abbrev S32 : Shape := ⟨1, ![32]⟩
abbrev S512x32 : Shape := ⟨2, ![512, 32]⟩
abbrev S512 : Shape := ⟨1, ![512]⟩
abbrev S32x32x32x512 : Shape := ⟨4, ![32, 32, 32, 512]⟩
abbrev S32768x512 : Shape := ⟨2, ![32768, 512]⟩
abbrev S1x32 : Shape := ⟨2, ![1, 32]⟩
abbrev S1x512 : Shape := ⟨2, ![1, 512]⟩
abbrev S4096x512 : Shape := ⟨2, ![4096, 512]⟩
abbrev S4x1024x512 : Shape := ⟨3, ![4, 1024, 512]⟩
abbrev S4x512 : Shape := ⟨2, ![4, 512]⟩
abbrev S4x32 : Shape := ⟨2, ![4, 32]⟩
abbrev S4x1x512 : Shape := ⟨3, ![4, 1, 512]⟩

abbrev nBuf : Space → Nat
  | .hbm => 14
  | .vmem => 8
  | .smem => 0
  | _ => 0

abbrev bufTy : (tb : Table) → Fin (tcTables nBuf tb) → BufTy
  | .hbm, ⟨0, _⟩ => ⟨S32x512x32x32, .f32⟩
  | .hbm, ⟨1, _⟩ => ⟨S32x512, .f32⟩
  | .hbm, ⟨2, _⟩ => ⟨S32, .f32⟩
  | .hbm, ⟨3, _⟩ => ⟨S512x32, .f32⟩
  | .hbm, ⟨4, _⟩ => ⟨S512, .f32⟩
  | .hbm, ⟨5, _⟩ => ⟨S32x32x32x512, .f32⟩
  | .hbm, ⟨6, _⟩ => ⟨S32768x512, .f32⟩
  | .hbm, ⟨7, _⟩ => ⟨S512x32, .f32⟩
  | .hbm, ⟨8, _⟩ => ⟨S32x512, .f32⟩
  | .hbm, ⟨9, _⟩ => ⟨S1x32, .f32⟩
  | .hbm, ⟨10, _⟩ => ⟨S1x512, .f32⟩
  | .hbm, ⟨11, _⟩ => ⟨S32768x512, .f32⟩
  | .hbm, ⟨12, _⟩ => ⟨S32x32x32x512, .f32⟩
  | .hbm, ⟨13, _⟩ => ⟨S32x512x32x32, .f32⟩
  | .local _ .vmem, ⟨0, _⟩ => ⟨S4096x512, .f32⟩
  | .local _ .vmem, ⟨1, _⟩ => ⟨S4096x512, .f32⟩
  | .local _ .vmem, ⟨2, _⟩ => ⟨S512x32, .f32⟩
  | .local _ .vmem, ⟨3, _⟩ => ⟨S1x32, .f32⟩
  | .local _ .vmem, ⟨4, _⟩ => ⟨S32x512, .f32⟩
  | .local _ .vmem, ⟨5, _⟩ => ⟨S1x512, .f32⟩
  | .local _ .vmem, ⟨6, _⟩ => ⟨S4096x512, .f32⟩
  | .local _ .vmem, ⟨7, _⟩ => ⟨S4096x512, .f32⟩
  | _, _ => ⟨S32x512x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4096x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  transposes_S32x512x32x32_S32x32x32x512_0_2_3_1 : S32x512x32x32.Transposes [0, 2, 3, 1] S32x32x32x512
  shapeCasts_S32x32x32x512_S32768x512 : S32x32x32x512.ShapeCasts S32768x512
  transposes_S32x512_S512x32_1_0 : S32x512.Transposes [1, 0] S512x32
  transposes_S512x32_S32x512_1_0 : S512x32.Transposes [1, 0] S32x512
  shapeCasts_S32_S1x32 : S32.ShapeCasts S1x32
  shapeCasts_S512_S1x512 : S512.ShapeCasts S1x512
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  shapeCasts_S4096x512_S4x1024x512 : S4096x512.ShapeCasts S4x1024x512
  reduces_S4x1024x512_S4x512 : S4x1024x512.Reduces [1] S4x512
  inb_S512x32_S512x32_0_0 : ∀ a, (![0, 0] : Fin 2 → Nat) a + S512x32.size a ≤ S512x32.size a
  h_S512x32 : 0 < S512x32.numel
  shapeCasts_S512x32_S512x32 : S512x32.ShapeCasts S512x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S4x32 : S1x32.Broadcasts S4x32
  inb_S32x512_S32x512_0_0 : ∀ a, (![0, 0] : Fin 2 → Nat) a + S32x512.size a ≤ S32x512.size a
  h_S32x512 : 0 < S32x512.numel
  shapeCasts_S32x512_S32x512 : S32x512.ShapeCasts S32x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S4x512 : S1x512.Broadcasts S4x512
  shapeCasts_S4x512_S4x1x512 : S4x512.ShapeCasts S4x1x512
  broadcasts_S4x1x512_S4x1024x512 : S4x1x512.Broadcasts S4x1024x512
  shapeCasts_S4x1024x512_S4096x512 : S4x1024x512.ShapeCasts S4096x512
  shapeCasts_S32768x512_S32x32x32x512 : S32768x512.ShapeCasts S32x32x32x512
  transposes_S32x32x32x512_S32x512x32x32_0_3_1_2 : S32x32x32x512.Transposes [0, 3, 1, 2] S32x512x32x32
  dot_S4x512_S512x32_S4x32_1_0_0_1_n_n_wf : DotDims.WF S4x512 S512x32 S4x32 [1] [0] [0] [1] [] []
  dot_S4x32_S32x512_S4x512_1_0_0_1_n_n_wf : DotDims.WF S4x32 S32x512 S4x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x512.size a ≤ S32768x512.size a
  hwx0_0 : ∀ i : grid0.Coords, EltTy.bits .f32 = 32 ∨ (Rect.block (s := S32768x512) S4096x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x32.size a ≤ S512x32.size a
  hwx0_1 : ∀ i : grid0.Coords, EltTy.bits .f32 = 32 ∨ (Rect.block (s := S512x32) S512x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x512.size a ≤ S32x512.size a
  hwx0_3 : ∀ i : grid0.Coords, EltTy.bits .f32 = 32 ∨ (Rect.block (s := S32x512) S32x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4096x512.size a ≤ S32768x512.size a
  hwx0_5 : ∀ i : grid0.Coords, EltTy.bits .f32 = 32 ∨ (Rect.block (s := S32768x512) S4096x512.size (cc0_transform_5 i) (hinb0_5 i)).WholeWords (EltTy.packing .f32)

variable [Facts₀]

def dot_S4x512_S512x32_S4x32_1_0_0_1_n_n : DotDims S4x512 S512x32 S4x32 where
  lhsContracting := [1]
  rhsContracting := [0]
  lhsNonContracting := [0]
  rhsNonContracting := [1]
  lhsBatch := []
  rhsBatch := []
  wf := dot_S4x512_S512x32_S4x32_1_0_0_1_n_n_wf
def dot_S4x32_S32x512_S4x512_1_0_0_1_n_n : DotDims S4x32 S32x512 S4x512 where
  lhsContracting := [1]
  rhsContracting := [0]
  lhsNonContracting := [0]
  rhsNonContracting := [1]
  lhsBatch := []
  rhsBatch := []
  wf := dot_S4x32_S32x512_S4x512_1_0_0_1_n_n_wf

abbrev win0_0 : Pipeline.Window sig grid0 :=
  Pipeline.Window.ofSpec (Memref.whole main_v1) S4096x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S512x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S32x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S4096x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S32x512x32x32 : Shape := ⟨4, ![32, 512, 32, 32]⟩
abbrev S32x512 : Shape := ⟨2, ![32, 512]⟩
abbrev S32 : Shape := ⟨1, ![32]⟩
abbrev S512x32 : Shape := ⟨2, ![512, 32]⟩
abbrev S512 : Shape := ⟨1, ![512]⟩
abbrev S1x32 : Shape := ⟨2, ![1, 32]⟩
abbrev S1x512 : Shape := ⟨2, ![1, 512]⟩
abbrev S32x512x1024 : Shape := ⟨3, ![32, 512, 1024]⟩
abbrev S8x512x1024 : Shape := ⟨3, ![8, 512, 1024]⟩
abbrev S8x512 : Shape := ⟨2, ![8, 512]⟩
abbrev S8x32 : Shape := ⟨2, ![8, 32]⟩
abbrev S16384x1024 : Shape := ⟨2, ![16384, 1024]⟩
abbrev S16384x1 : Shape := ⟨2, ![16384, 1]⟩
abbrev S1024x1024 : Shape := ⟨2, ![1024, 1024]⟩
abbrev S1024x1 : Shape := ⟨2, ![1024, 1]⟩

abbrev nBuf : Space → Nat
  | .hbm => 15
  | .vmem => 15
  | .smem => 0
  | _ => 0

abbrev bufTy : (tb : Table) → Fin (tcTables nBuf tb) → BufTy
  | .hbm, ⟨0, _⟩ => ⟨S32x512x32x32, .f32⟩
  | .hbm, ⟨1, _⟩ => ⟨S32x512, .f32⟩
  | .hbm, ⟨2, _⟩ => ⟨S32, .f32⟩
  | .hbm, ⟨3, _⟩ => ⟨S512x32, .f32⟩
  | .hbm, ⟨4, _⟩ => ⟨S512, .f32⟩
  | .hbm, ⟨5, _⟩ => ⟨S512x32, .f32⟩
  | .hbm, ⟨6, _⟩ => ⟨S32x512, .f32⟩
  | .hbm, ⟨7, _⟩ => ⟨S1x32, .f32⟩
  | .hbm, ⟨8, _⟩ => ⟨S1x512, .f32⟩
  | .hbm, ⟨9, _⟩ => ⟨S32x512x1024, .f32⟩
  | .hbm, ⟨10, _⟩ => ⟨S32x512, .f32⟩
  | .hbm, ⟨11, _⟩ => ⟨S16384x1024, .f32⟩
  | .hbm, ⟨12, _⟩ => ⟨S16384x1, .f32⟩
  | .hbm, ⟨13, _⟩ => ⟨S16384x1024, .f32⟩
  | .hbm, ⟨14, _⟩ => ⟨S32x512x32x32, .f32⟩
  | .local _ .vmem, ⟨0, _⟩ => ⟨S8x512x1024, .f32⟩
  | .local _ .vmem, ⟨1, _⟩ => ⟨S8x512x1024, .f32⟩
  | .local _ .vmem, ⟨2, _⟩ => ⟨S512x32, .f32⟩
  | .local _ .vmem, ⟨3, _⟩ => ⟨S1x32, .f32⟩
  | .local _ .vmem, ⟨4, _⟩ => ⟨S32x512, .f32⟩
  | .local _ .vmem, ⟨5, _⟩ => ⟨S1x512, .f32⟩
  | .local _ .vmem, ⟨6, _⟩ => ⟨S8x512, .f32⟩
  | .local _ .vmem, ⟨7, _⟩ => ⟨S8x512, .f32⟩
  | .local _ .vmem, ⟨8, _⟩ => ⟨S8x512, .f32⟩
  | .local _ .vmem, ⟨9, _⟩ => ⟨S1024x1024, .f32⟩
  | .local _ .vmem, ⟨10, _⟩ => ⟨S1024x1024, .f32⟩
  | .local _ .vmem, ⟨11, _⟩ => ⟨S1024x1, .f32⟩
  | .local _ .vmem, ⟨12, _⟩ => ⟨S1024x1, .f32⟩
  | .local _ .vmem, ⟨13, _⟩ => ⟨S1024x1024, .f32⟩
  | .local _ .vmem, ⟨14, _⟩ => ⟨S1024x1024, .f32⟩
  | _, _ => ⟨S32x512x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13

abbrev nD : Nat := 1
abbrev τ : Topo := Topo.v7x

variable {F : FTy → Type} [FloatOps F]

abbrev grid0 : Pipeline.Grid := ⟨2, ![4, 1], ![false, false]⟩

def k0_cond2 (i : grid0.Coords) : BitVec 1 :=
  let arg1 : BitVec 32 := BitVec.ofNat 32 (i 1).val
  let c0_i32_7 : BitVec 32 := 0#32
  let v11 : BitVec 1 := Scalar.cmpi .eq arg1 c0_i32_7
  let v12 : BitVec 32 := Scalar.extui v11
  let c0_i32_8 : BitVec 32 := 0#32
  let v13 : BitVec 1 := Scalar.cmpi .ne v12 c0_i32_8
  v13

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S512x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S32x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev grid1 : Pipeline.Grid := ⟨2, ![16, 1], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  transposes_S32x512_S512x32_1_0 : S32x512.Transposes [1, 0] S512x32
  transposes_S512x32_S32x512_1_0 : S512x32.Transposes [1, 0] S32x512
  shapeCasts_S32_S1x32 : S32.ShapeCasts S1x32
  shapeCasts_S512_S1x512 : S512.ShapeCasts S1x512
  shapeCasts_S32x512x32x32_S32x512x1024 : S32x512x32x32.ShapeCasts S32x512x1024
  inb_S8x512_S8x512_0_0 : ∀ a, (![0, 0] : Fin 2 → Nat) a + S8x512.size a ≤ S8x512.size a
  h_S8x512 : 0 < S8x512.numel
  shapeCasts_S8x512_S8x512 : S8x512.ShapeCasts S8x512
  inb_S8x512x1024_S8x512x1024_0_0_0 : ∀ a, (![0, 0, 0] : Fin 3 → Nat) a + S8x512x1024.size a ≤ S8x512x1024.size a
  h_S8x512x1024 : 0 < S8x512x1024.numel
  shapeCasts_S8x512x1024_S8x512x1024 : S8x512x1024.ShapeCasts S8x512x1024
  reduces_S8x512x1024_S8x512 : S8x512x1024.Reduces [2] S8x512
  inb_S512x32_S512x32_0_0 : ∀ a, (![0, 0] : Fin 2 → Nat) a + S512x32.size a ≤ S512x32.size a
  h_S512x32 : 0 < S512x32.numel
  shapeCasts_S512x32_S512x32 : S512x32.ShapeCasts S512x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S8x32 : S1x32.Broadcasts S8x32
  inb_S32x512_S32x512_0_0 : ∀ a, (![0, 0] : Fin 2 → Nat) a + S32x512.size a ≤ S32x512.size a
  h_S32x512 : 0 < S32x512.numel
  shapeCasts_S32x512_S32x512 : S32x512.ShapeCasts S32x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S8x512 : S1x512.Broadcasts S8x512
  shapeCasts_S32x512x32x32_S16384x1024 : S32x512x32x32.ShapeCasts S16384x1024
  shapeCasts_S32x512_S16384x1 : S32x512.ShapeCasts S16384x1
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x1024 : S1024x1.Broadcasts S1024x1024
  shapeCasts_S16384x1024_S32x512x32x32 : S16384x1024.ShapeCasts S32x512x32x32
  dot_S8x512_S512x32_S8x32_1_0_0_1_n_n_wf : DotDims.WF S8x512 S512x32 S8x32 [1] [0] [0] [1] [] []
  dot_S8x32_S32x512_S8x512_1_0_0_1_n_n_wf : DotDims.WF S8x32 S32x512 S8x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x512x1024.size a ≤ S32x512x1024.size a
  hwx0_0 : ∀ i : grid0.Coords, EltTy.bits .f32 = 32 ∨ (Rect.block (s := S32x512x1024) S8x512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x32.size a ≤ S512x32.size a
  hwx0_1 : ∀ i : grid0.Coords, EltTy.bits .f32 = 32 ∨ (Rect.block (s := S512x32) S512x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x512.size a ≤ S32x512.size a
  hwx0_3 : ∀ i : grid0.Coords, EltTy.bits .f32 = 32 ∨ (Rect.block (s := S32x512) S32x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8x512.size a ≤ S32x512.size a
  hwx0_5 : ∀ i : grid0.Coords, EltTy.bits .f32 = 32 ∨ (Rect.block (s := S32x512) S8x512.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S16384x1024.size a
  hwx1_0 : ∀ i : grid1.Coords, EltTy.bits .f32 = 32 ∨ (Rect.block (s := S16384x1024) S1024x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1.size a ≤ S16384x1.size a
  hwx1_1 : ∀ i : grid1.Coords, EltTy.bits .f32 = 32 ∨ (Rect.block (s := S16384x1) S1024x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S16384x1024.size a
  hwx1_2 : ∀ i : grid1.Coords, EltTy.bits .f32 = 32 ∨ (Rect.block (s := S16384x1024) S1024x1024.size (cc1_transform_2 i) (hinb1_2 i)).WholeWords (EltTy.packing .f32)

variable [Facts₀]

def dot_S8x512_S512x32_S8x32_1_0_0_1_n_n : DotDims S8x512 S512x32 S8x32 where
  lhsContracting := [1]
  rhsContracting := [0]
  lhsNonContracting := [0]
  rhsNonContracting := [1]
  lhsBatch := []
  rhsBatch := []
  wf := dot_S8x512_S512x32_S8x32_1_0_0_1_n_n_wf
def dot_S8x32_S32x512_S8x512_1_0_0_1_n_n : DotDims S8x32 S32x512 S8x512 where
  lhsContracting := [1]
  rhsContracting := [0]
  lhsNonContracting := [0]
  rhsNonContracting := [1]
  lhsBatch := []
  rhsBatch := []
  wf := dot_S8x32_S32x512_S8x512_1_0_0_1_n_n_wf

abbrev win0_0 : Pipeline.Window sig grid0 :=
  Pipeline.Window.ofSpec (Memref.whole main_v4) S8x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S32x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S8x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

abbrev win1_0 : Pipeline.Window sig grid1 :=
  Pipeline.Window.ofSpec (Memref.whole main_v6) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S1024x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S1024x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== Proof.Spec.lean ====
/-
  The function both programs compute, on the extended reals.

  For a feature map `x : [32, 512, 32, 32]` (sample, channel, row, column) and the weights of two dense layers
  `w1 : [32, 512]`, `b1 : [32]`, `w2 : [512, 32]`, `b2 : [512]`:

    mean n c   = (Σ over the 1024 positions of x n c ·) · 2⁻¹⁰         -- the spatial mean of a channel
    hidden n r = max (Σ_c mean n c · w1 r c + b1 r) 0                  -- first layer, rectified
    gate n c   = logistic (Σ_r hidden n r · w2 c r + b2 c)             -- second layer, squashed to (0, 1)
    result     = x n c h w · gate n c                                  -- every channel rescaled by its gate

  A position `k < 1024` of the map is row `k / 32`, column `k % 32`. The two float constants (0 and 2⁻¹⁰) are kept as
  the words the programs print; only the zero word is ever evaluated.
-/
import Idealize.ShloMosaic.PureOps.Ideal
import Idealize.ShloMosaic.PureOps.Ideal.Laws
import Idealize.ShloMosaic.Lib.ValueIdx

noncomputable section

namespace Cert.SqueezeExcite

open Idealize.ShloMosaic Idealize.ShloMosaic.ValueIdx
open scoped BigOperators

abbrev SX : Shape := ⟨4, ![32, 512, 32, 32]⟩
abbrev SW1 : Shape := ⟨2, ![32, 512]⟩
abbrev SB1 : Shape := ⟨1, ![32]⟩
abbrev SW2 : Shape := ⟨2, ![512, 32]⟩
abbrev SB2 : Shape := ⟨1, ![512]⟩

/-- The row of spatial position `k` in the 32 × 32 map. -/
def rowOf (k : Fin 1024) : Fin 32 := ⟨k.val / 32, by have := k.isLt; omega⟩
/-- Its column. -/
def colOf (k : Fin 1024) : Fin 32 := ⟨k.val % 32, Nat.mod_lt _ (by decide)⟩

theorem rowOf_val (k : Fin 1024) : (rowOf k).val = k.val / 32 := rfl
theorem colOf_val (k : Fin 1024) : (colOf k).val = k.val % 32 := rfl

/-- The sum of channel `c` of sample `n` over its 1024 positions. -/
def total (x : SX.Idx → EReal) (n : Fin 32) (c : Fin 512) : EReal :=
  ∑ k : Fin 1024, x (ix4 n c (rowOf k) (colOf k))

/-- The spatial mean: the total times 2⁻¹⁰. -/
def mean (x : SX.Idx → EReal) (n : Fin 32) (c : Fin 512) : EReal :=
  total x n c * Ideal.ofBits .f32 0x3A800000#32

/-- The first dense layer, rectified. -/
def hidden (x : SX.Idx → EReal) (w1 : SW1.Idx → EReal) (b1 : SB1.Idx → EReal) (n : Fin 32) (r : Fin 32) : EReal :=
  max ((∑ c : Fin 512, mean x n c * w1 (ix2 r c)) + b1 (ix1 r)) (Ideal.ofBits .f32 0x00000000#32)

/-- The second dense layer through the logistic function: the gate of channel `c` of sample `n`. -/
def gate (x : SX.Idx → EReal) (w1 : SW1.Idx → EReal) (b1 : SB1.Idx → EReal) (w2 : SW2.Idx → EReal) (b2 : SB2.Idx → EReal)
    (n : Fin 32) (c : Fin 512) : EReal :=
  Ideal.logistic ((∑ r : Fin 32, hidden x w1 b1 n r * w2 (ix2 c r)) + b2 (ix1 c))

/-- The result: every entry of the map times the gate of its sample and channel. -/
def result (x : SX.Idx → EReal) (w1 : SW1.Idx → EReal) (b1 : SB1.Idx → EReal) (w2 : SW2.Idx → EReal) (b2 : SB2.Idx → EReal) :
    SX.Idx → EReal :=
  fun i => x i * gate x w1 b1 w2 b2 (i 0) (i 1)

theorem result_apply (x : SX.Idx → EReal) (w1 : SW1.Idx → EReal) (b1 : SB1.Idx → EReal) (w2 : SW2.Idx → EReal) (b2 : SB2.Idx → EReal)
    (n : Fin 32) (c : Fin 512) (h w : Fin 32) :
    result x w1 b1 w2 b2 (ix4 n c h w) = x (ix4 n c h w) * gate x w1 b1 w2 b2 n c := rfl

end Cert.SqueezeExcite

end
-- ==== Proof.KHost.lean ====
/-
  The five arrays the kernel's grid steps read, entry by entry, in terms of the program's arguments.

  Before the kernel runs the program moves the channel axis of the feature map last and flattens sample, row and column
  into one axis of 32 · 32 · 32 = 32768 rows: row n·1024 + h·32 + w, channel c holds the map's entry (n, c, h, w). It
  transposes both weight matrices and gives each bias a leading axis of extent one.
-/
import proofs.«134633_g2000103765949958_pallasbulk_761_9_alg».proof.Proof.Gen.KernelIdeal.Frame
import Idealize.ShloMosaic.Lib.ValueIdx
import Idealize.ShloMosaic.Lib.ValueLayout
import Idealize.ShloMosaic.Lib.StableHlo.Run

noncomputable section

namespace Cert.KernelIdeal.KValue

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-! ## Each array as the operations that made it -/

theorem rows_term (c : Dev nD) :
    (V m c main_v1 : S32768x512.Idx → EReal)
      = shapeCast S32768x512 (transpose S32x32x32x512 [0, 2, 3, 1]
          (m ((c : Thread nD τ).loc main_arg0) : S32x512x32x32.Idx → EReal)
          Gen.transposes_S32x512x32x32_S32x32x32x512_0_2_3_1) Gen.shapeCasts_S32x32x32x512_S32768x512 := by
  show StableHlo.after hostOps0 (fun b => m (c, b)) (Proc.devRef .tc main_v1) = _
  after_results
  rfl

theorem weights1_term (c : Dev nD) :
    (V m c main_v2 : S512x32.Idx → EReal)
      = transpose S512x32 [1, 0] (m ((c : Thread nD τ).loc main_arg1) : S32x512.Idx → EReal)
          Gen.transposes_S32x512_S512x32_1_0 := by
  show StableHlo.after hostOps0 (fun b => m (c, b)) (Proc.devRef .tc main_v2) = _
  after_results

theorem weights2_term (c : Dev nD) :
    (V m c main_v3 : S32x512.Idx → EReal)
      = transpose S32x512 [1, 0] (m ((c : Thread nD τ).loc main_arg3) : S512x32.Idx → EReal)
          Gen.transposes_S512x32_S32x512_1_0 := by
  show StableHlo.after hostOps0 (fun b => m (c, b)) (Proc.devRef .tc main_v3) = _
  after_results

theorem bias1_term (c : Dev nD) :
    (V m c main_v4 : S1x32.Idx → EReal)
      = shapeCast S1x32 (m ((c : Thread nD τ).loc main_arg2) : S32.Idx → EReal) Gen.shapeCasts_S32_S1x32 := by
  show StableHlo.after hostOps0 (fun b => m (c, b)) (Proc.devRef .tc main_v4) = _
  after_results
  rfl

theorem bias2_term (c : Dev nD) :
    (V m c main_v5 : S1x512.Idx → EReal)
      = shapeCast S1x512 (m ((c : Thread nD τ).loc main_arg4) : S512.Idx → EReal) Gen.shapeCasts_S512_S1x512 := by
  show StableHlo.after hostOps0 (fun b => m (c, b)) (Proc.devRef .tc main_v5) = _
  after_results
  rfl

/-! ## Each array at an entry -/

/-- Row n·1024 + h·32 + w, channel ch of the flattened map is the map's entry (n, ch, h, w). -/
theorem rows_entry (c : Dev nD) (r : Fin 32768) (ch : Fin 512) (n h w : Fin 32)
    (hr : r.val = n.val * 1024 + h.val * 32 + w.val) :
    (V m c main_v1 : S32768x512.Idx → EReal) (ix2 r ch)
      = (m ((c : Thread nD τ).loc main_arg0) : S32x512x32x32.Idx → EReal) (ix4 n ch h w) := by
  rw [rows_term]
  refine (shapeCast_apply _ _ (ix2 r ch) (ix4 n h w ch) ?_).trans ?_
  · rw [Shape.rowMajor_val_four, Shape.rowMajor_val_two]
    show ((n.val * 32 + h.val) * 32 + w.val) * 512 + ch.val = r.val * 512 + ch.val
    omega
  · exact transpose_apply [0, 2, 3, 1] _ _ (ix4 n h w ch) (ix4 n ch h w) fun b =>
      match b with
      | ⟨0, _⟩ => rfl
      | ⟨1, _⟩ => rfl
      | ⟨2, _⟩ => rfl
      | ⟨3, _⟩ => rfl

/-- The first layer's weights, transposed: entry (ch, q) is the argument's (q, ch). -/
theorem weights1_entry (c : Dev nD) (ch : Fin 512) (q : Fin 32) :
    (V m c main_v2 : S512x32.Idx → EReal) (ix2 ch q)
      = (m ((c : Thread nD τ).loc main_arg1) : S32x512.Idx → EReal) (ix2 q ch) := by
  rw [weights1_term]
  exact transpose_ix2_apply _ _ ch q

/-- The second layer's weights, transposed: entry (q, ch) is the argument's (ch, q). -/
theorem weights2_entry (c : Dev nD) (q : Fin 32) (ch : Fin 512) :
    (V m c main_v3 : S32x512.Idx → EReal) (ix2 q ch)
      = (m ((c : Thread nD τ).loc main_arg3) : S512x32.Idx → EReal) (ix2 ch q) := by
  rw [weights2_term]
  exact transpose_ix2_apply _ _ q ch

/-- The first bias as a row. -/
theorem bias1_entry (c : Dev nD) (u : Fin 1) (q : Fin 32) :
    (V m c main_v4 : S1x32.Idx → EReal) (ix2 u q) = (m ((c : Thread nD τ).loc main_arg2) : S32.Idx → EReal) (ix1 q) := by
  rw [bias1_term]
  exact shapeCast_a_1a_apply _ _ u q

/-- The second bias as a row. -/
theorem bias2_entry (c : Dev nD) (u : Fin 1) (ch : Fin 512) :
    (V m c main_v5 : S1x512.Idx → EReal) (ix2 u ch) = (m ((c : Thread nD τ).loc main_arg4) : S512.Idx → EReal) (ix1 ch) := by
  rw [bias2_term]
  exact shapeCast_a_1a_apply _ _ u ch

end Cert.KernelIdeal.KValue

end
-- ==== Proof.KPay.lean ====
/-
  The arithmetic of one grid step, read at one entry.

  A grid step holds a block of 4096 rows and 512 channels: the 1024 positions of four samples, sample after sample,
  so row `p` of the block is position `p % 1024` of the block's sample `p / 1024`. The step sums each channel of each
  sample over its 1024 rows, scales the sum, passes the four rows of 512 means through the two dense layers, and
  multiplies every entry of the block by the gate of its sample and channel. So the entry at row `p`, channel `c`
  depends on the 1024 rows of its own sample (all 512 channels of them) and on nothing else of the block.
-/
import proofs.«134633_g2000103765949958_pallasbulk_761_9_alg».proof.Proof.Gen.KernelIdeal.Skeleton
import Idealize.ShloMosaic.Lib.ValueIdx
import Idealize.ShloMosaic.Lib.ValueLayout
import Idealize.ShloMosaic.PureOps.Ideal.Laws

noncomputable section

namespace Cert.KernelIdeal.KValue

open Idealize.ShloMosaic Idealize.ShloMosaic.ValueIdx
open scoped BigOperators

/-! ## The layout steps -/

/-- The block's 4096 rows seen as 4 samples of 1024 positions: entry (n, k, c) is row n·1024 + k. -/
theorem rows_as_samples {α : Type} (v : S4096x512.Idx → α) (h : S4096x512.ShapeCasts S4x1024x512)
    (n : Fin 4) (k : Fin 1024) (c : Fin 512) :
    shapeCast S4x1024x512 v h (ix3 n k c) = v (ix2 (⟨n.val * 1024 + k.val, by omega⟩ : Fin 4096) c) :=
  shapeCast_apply v h _ _ (by
    rw [Shape.rowMajor_val_two, Shape.rowMajor_val_three]
    show (n.val * 1024 + k.val) * 512 + c.val = (n.val * 1024 + k.val) * 512 + c.val
    rfl)

/-- And back: row p is position p % 1024 of sample p / 1024. -/
theorem samples_as_rows {α : Type} (v : S4x1024x512.Idx → α) (h : S4x1024x512.ShapeCasts S4096x512)
    (p : Fin 4096) (c : Fin 512) :
    shapeCast S4096x512 v h (ix2 p c)
      = v (ix3 (⟨p.val / 1024, by omega⟩ : Fin 4) (⟨p.val % 1024, by omega⟩ : Fin 1024) c) :=
  shapeCast_apply v h _ _ (by
    rw [Shape.rowMajor_val_three, Shape.rowMajor_val_two]
    show (p.val / 1024 * 1024 + p.val % 1024) * 512 + c.val = p.val * 512 + c.val
    omega)

/-- A value per (sample, channel), given a middle axis of extent one and repeated along the 1024 positions, reads at
    (n, k, c) the value of (n, c). -/
theorem repeat_over_positions {α : Type} (g : S4x512.Idx → α) (h : S4x512.ShapeCasts S4x1x512)
    (h' : S4x1x512.Broadcasts S4x1024x512) (n : Fin 4) (k : Fin 1024) (c : Fin 512) :
    broadcastTo S4x1024x512 (shapeCast S4x1x512 g h) h' (ix3 n k c) = g (ix2 n c) := by
  refine (broadcastTo_apply _ h' (ix3 n k c) (ix3 n (0 : Fin 1) c) fun a => ?_).trans ?_
  · match a with
    | ⟨0, _⟩ => rfl
    | ⟨1, _⟩ => rfl
    | ⟨2, _⟩ => rfl
  · exact shapeCast_apply g h _ _ (by
      rw [Shape.rowMajor_val_two, Shape.rowMajor_val_three]
      show n.val * 512 + c.val = (n.val * 1 + 0) * 512 + c.val
      omega)

/-! ## The three arithmetic stages -/

/-- The sum over the 1024 positions of a sample, channel by channel. -/
theorem sum_over_positions (v : FVec Ideal S4x1024x512 .f32) (h : S4x1024x512.Reduces [1] S4x512)
    (hφ : FKind.Formats .f32) (hacc : (0x00000000#32 : BitVec 32) = FKind.add.neutral .f32 hφ)
    (n : Fin 4) (c : Fin 512) :
    multiReduction (F := Ideal) .add [1] S4x512 v 0x00000000#32 h hφ hacc (ix2 n c) = ∑ k : Fin 1024, v (ix3 n k c) := by
  refine (Ideal.multiReduction_add_single v _ h hφ hacc (ix2 n c)).trans ?_
  refine Finset.sum_congr rfl fun k _ => congrArg v ?_
  funext a; apply Fin.ext
  match a with
  | ⟨0, _⟩ => rfl
  | ⟨1, _⟩ => rfl
  | ⟨2, _⟩ => rfl

/-- The first dense layer's product: 4 rows of 512 means against the 512 × 32 weights. -/
theorem first_product (l : FVec Ideal S4x512 .f32) (r : FVec Ideal S512x32 .f32) (n : Fin 4) (q : Fin 32) :
    matmul dot_S4x512_S512x32_S4x32_1_0_0_1_n_n none l r (constant (F := Ideal) S4x32 .f32 0x00000000#32) (ix2 n q)
      = ∑ c : Fin 512, l (ix2 n c) * r (ix2 c q) := by
  refine (Ideal.matmul_constant_zero_apply dot_S4x512_S512x32_S4x32_1_0_0_1_n_n none l r (ix2 n q)).trans ?_
  rw [← Equiv.sum_comp (contrEquiv1 dot_S4x512_S512x32_S4x32_1_0_0_1_n_n 512 rfl rfl).symm]
  refine Finset.sum_congr rfl fun c _ => ?_
  have cv := contrEquiv1_symm_val dot_S4x512_S512x32_S4x32_1_0_0_1_n_n 512 rfl rfl c
  have el : dot_S4x512_S512x32_S4x32_1_0_0_1_n_n.lhsIdx (ix2 n q) ((contrEquiv1 _ 512 rfl rfl).symm c) = ix2 n c := by
    funext ax; apply Fin.ext
    match ax with
    | ⟨0, _⟩ => simp [DotDims.lhsIdx, dot_S4x512_S512x32_S4x32_1_0_0_1_n_n]; rfl
    | ⟨1, _⟩ => simp [DotDims.lhsIdx, dot_S4x512_S512x32_S4x32_1_0_0_1_n_n]; exact cv
  have er : dot_S4x512_S512x32_S4x32_1_0_0_1_n_n.rhsIdx (ix2 n q) ((contrEquiv1 _ 512 rfl rfl).symm c) = ix2 c q := by
    funext ax; apply Fin.ext
    match ax with
    | ⟨0, _⟩ => simp [DotDims.rhsIdx, dot_S4x512_S512x32_S4x32_1_0_0_1_n_n]; exact cv
    | ⟨1, _⟩ => simp [DotDims.rhsIdx, dot_S4x512_S512x32_S4x32_1_0_0_1_n_n]; rfl
  rw [el, er]

/-- The second dense layer's product: 4 rows of 32 hidden values against the 32 × 512 weights. -/
theorem second_product (l : FVec Ideal S4x32 .f32) (r : FVec Ideal S32x512 .f32) (n : Fin 4) (c : Fin 512) :
    matmul dot_S4x32_S32x512_S4x512_1_0_0_1_n_n none l r (constant (F := Ideal) S4x512 .f32 0x00000000#32) (ix2 n c)
      = ∑ q : Fin 32, l (ix2 n q) * r (ix2 q c) := by
  refine (Ideal.matmul_constant_zero_apply dot_S4x32_S32x512_S4x512_1_0_0_1_n_n none l r (ix2 n c)).trans ?_
  rw [← Equiv.sum_comp (contrEquiv1 dot_S4x32_S32x512_S4x512_1_0_0_1_n_n 32 rfl rfl).symm]
  refine Finset.sum_congr rfl fun q _ => ?_
  have cv := contrEquiv1_symm_val dot_S4x32_S32x512_S4x512_1_0_0_1_n_n 32 rfl rfl q
  have el : dot_S4x32_S32x512_S4x512_1_0_0_1_n_n.lhsIdx (ix2 n c) ((contrEquiv1 _ 32 rfl rfl).symm q) = ix2 n q := by
    funext ax; apply Fin.ext
    match ax with
    | ⟨0, _⟩ => simp [DotDims.lhsIdx, dot_S4x32_S32x512_S4x512_1_0_0_1_n_n]; rfl
    | ⟨1, _⟩ => simp [DotDims.lhsIdx, dot_S4x32_S32x512_S4x512_1_0_0_1_n_n]; exact cv
  have er : dot_S4x32_S32x512_S4x512_1_0_0_1_n_n.rhsIdx (ix2 n c) ((contrEquiv1 _ 32 rfl rfl).symm q) = ix2 q c := by
    funext ax; apply Fin.ext
    match ax with
    | ⟨0, _⟩ => simp [DotDims.rhsIdx, dot_S4x32_S32x512_S4x512_1_0_0_1_n_n]; exact cv
    | ⟨1, _⟩ => simp [DotDims.rhsIdx, dot_S4x32_S32x512_S4x512_1_0_0_1_n_n]; rfl
  rw [el, er]

/-! ## The stages, each at one entry -/

/-- The mean of channel c of the block's sample n: the sum over its 1024 rows, times the printed constant. -/
theorem mean_stage (v : FVec Ideal S4x1024x512 .f32) (h : S4x1024x512.Reduces [1] S4x512)
    (hφ : FKind.Formats .f32) (hacc : (0x00000000#32 : BitVec 32) = FKind.add.neutral .f32 hφ) (w : BitVec 32)
    (n : Fin 4) (c : Fin 512) :
    mulf (multiReduction (F := Ideal) .add [1] S4x512 v 0x00000000#32 h hφ hacc)
        (broadcast S4x512 (Scalar.ofBits (F := Ideal) .f32 w)) (ix2 n c)
      = (∑ k : Fin 1024, v (ix3 n k c)) * Ideal.ofBits .f32 w :=
  congrArg (fun s : EReal => s * Ideal.ofBits .f32 w) (sum_over_positions v h hφ hacc n c)

/-- The first dense layer, rectified: means against the weights, plus the bias row, against zero. -/
theorem hidden_stage (l : FVec Ideal S4x512 .f32) (x1 : FVec Ideal S512x32 .f32) (x2 : FVec Ideal S1x32 .f32)
    (h1 : S512x32.ShapeCasts S512x32) (h2 : S1x32.ShapeCasts S1x32) (h3 : S1x32.Broadcasts S4x32) (w : BitVec 32)
    (n : Fin 4) (q : Fin 32) :
    maximumf (addf (matmul dot_S4x512_S512x32_S4x32_1_0_0_1_n_n none l (shapeCast S512x32 x1 h1)
          (constant (F := Ideal) S4x32 .f32 0x00000000#32)) (broadcastTo S4x32 (shapeCast S1x32 x2 h2) h3))
        (broadcast S4x32 (Scalar.ofBits (F := Ideal) .f32 w)) (ix2 n q)
      = max ((∑ c : Fin 512, l (ix2 n c) * x1 (ix2 c q)) + x2 (ix2 (0 : Fin 1) q)) (Ideal.ofBits .f32 w) := by
  show max (_ + _) _ = max (_ + _) _
  refine congrArg₂ max (congrArg₂ (· + ·) ?_ ?_) rfl
  · rw [shapeCast_self x1 h1]
    exact first_product l x1 n q
  · rw [shapeCast_self x2 h2]
    exact broadcastTo_1b_ab_apply x2 h3 n q

/-- The second dense layer through the logistic function. -/
theorem gate_stage (l : FVec Ideal S4x32 .f32) (x3 : FVec Ideal S32x512 .f32) (x4 : FVec Ideal S1x512 .f32)
    (h1 : S32x512.ShapeCasts S32x512) (h2 : S1x512.ShapeCasts S1x512) (h3 : S1x512.Broadcasts S4x512)
    (n : Fin 4) (c : Fin 512) :
    logistic (addf (matmul dot_S4x32_S32x512_S4x512_1_0_0_1_n_n none l (shapeCast S32x512 x3 h1)
          (constant (F := Ideal) S4x512 .f32 0x00000000#32)) (broadcastTo S4x512 (shapeCast S1x512 x4 h2) h3)) (ix2 n c)
      = Ideal.logistic ((∑ q : Fin 32, l (ix2 n q) * x3 (ix2 q c)) + x4 (ix2 (0 : Fin 1) c)) := by
  show Ideal.logistic (_ + _) = Ideal.logistic (_ + _)
  refine congrArg Ideal.logistic (congrArg₂ (· + ·) ?_ ?_)
  · rw [shapeCast_self x3 h1]
    exact second_product l x3 n c
  · rw [shapeCast_self x4 h2]
    exact broadcastTo_1b_ab_apply x4 h3 n c

/-! ## One entry of what a grid step stores -/

/-- The entry at row p, channel c of what a grid step stores, from the step's five loaded blocks: the entry of the
    feature block times the gate of its sample (p / 1024) and channel. The sample's means run over the 1024 rows
    (p / 1024) · 1024 + k of the block. -/
theorem block_entry (x0 : FVec Ideal S4096x512 .f32) (x1 : FVec Ideal S512x32 .f32) (x2 : FVec Ideal S1x32 .f32)
    (x3 : FVec Ideal S32x512 .f32) (x4 : FVec Ideal S1x512 .f32) (p : Fin 4096) (c : Fin 512) :
    Gen.k0_pay1 (F := Ideal) x0 x1 x2 x3 x4 (ix2 p c)
      = x0 (ix2 p c) * Ideal.logistic ((∑ q : Fin 32,
          max ((∑ c' : Fin 512,
                ((∑ k : Fin 1024, x0 (ix2 (⟨p.val / 1024 * 1024 + k.val, by omega⟩ : Fin 4096) c'))
                  * Ideal.ofBits .f32 0x3A800000#32) * x1 (ix2 c' q)) + x2 (ix2 (0 : Fin 1) q))
              (Ideal.ofBits .f32 0x00000000#32) * x3 (ix2 q c)) + x4 (ix2 (0 : Fin 1) c)) := by
  unfold Gen.k0_pay1
  refine (samples_as_rows _ _ p c).trans ?_
  show _ * _ = _ * _
  refine congrArg₂ (· * ·) ?_ ?_
  · -- the entry of the feature block itself
    refine (rows_as_samples _ _ _ _ c).trans ?_
    rw [shapeCast_self x0]
    exact congrArg x0 (congrArg (fun r : Fin 4096 => ix2 r c) (Fin.ext (by
      show p.val / 1024 * 1024 + p.val % 1024 = p.val; omega)))
  · -- its gate
    refine (repeat_over_positions _ _ _ _ _ c).trans ?_
    refine (gate_stage _ x3 x4 _ _ _ _ c).trans ?_
    refine congrArg Ideal.logistic (congrArg₂ (· + ·) (Finset.sum_congr rfl fun q _ => congrArg₂ (· * ·) ?_ rfl) rfl)
    refine (hidden_stage _ x1 x2 _ _ _ _ _ q).trans ?_
    refine congrArg₂ max (congrArg₂ (· + ·) (Finset.sum_congr rfl fun c' _ => congrArg₂ (· * ·) ?_ rfl) rfl) rfl
    refine (mean_stage _ _ _ _ _ _ c').trans ?_
    refine congrArg (fun s : EReal => s * Ideal.ofBits .f32 0x3A800000#32) (Finset.sum_congr rfl fun k _ => ?_)
    refine (rows_as_samples _ _ _ k c').trans ?_
    rw [shapeCast_self x0]

/-! ## The gate as a function of a sample's channel totals -/

/-- The gate of channel c from the 512 channel totals of a sample and the two layers' weights and biases in the
    arrangement the grid steps hold them: the first weights by (channel, hidden unit), the second by (hidden unit,
    channel). Total times the printed constant is the mean; the first layer is rectified, the second goes through
    the logistic function. -/
def gateOf (tot : Fin 512 → EReal) (W1 : Fin 512 → Fin 32 → EReal) (B1 : Fin 32 → EReal)
    (W2 : Fin 32 → Fin 512 → EReal) (B2 : Fin 512 → EReal) (c : Fin 512) : EReal :=
  Ideal.logistic ((∑ q : Fin 32,
      max ((∑ c' : Fin 512, (tot c' * Ideal.ofBits .f32 0x3A800000#32) * W1 c' q) + B1 q)
          (Ideal.ofBits .f32 0x00000000#32) * W2 q c) + B2 c)

/-- `block_entry` with the gate named: the totals are those of the 1024 rows of the entry's own sample. -/
theorem block_entry_gate (x0 : FVec Ideal S4096x512 .f32) (x1 : FVec Ideal S512x32 .f32) (x2 : FVec Ideal S1x32 .f32)
    (x3 : FVec Ideal S32x512 .f32) (x4 : FVec Ideal S1x512 .f32) (p : Fin 4096) (c : Fin 512) :
    Gen.k0_pay1 (F := Ideal) x0 x1 x2 x3 x4 (ix2 p c)
      = x0 (ix2 p c) * gateOf
          (fun c' => ∑ k : Fin 1024, x0 (ix2 (⟨p.val / 1024 * 1024 + k.val, by omega⟩ : Fin 4096) c'))
          (fun c' q => x1 (ix2 c' q)) (fun q => x2 (ix2 (0 : Fin 1) q))
          (fun q c' => x3 (ix2 q c')) (fun c' => x4 (ix2 (0 : Fin 1) c')) c :=
  block_entry x0 x1 x2 x3 x4 p c

end Cert.KernelIdeal.KValue

end
-- ==== Proof.KBlocks.lean ====
/-
  From the grid steps to the whole array.

  The kernel runs 8 grid steps. Step t reads rows t·4096 … t·4096 + 4095 of the flattened map (four whole samples)
  and the two layers' weights and biases entire, and writes the same rows of the result. Since a row's gate depends
  only on the 1024 rows of its own sample, which lie inside the step's block, what step t writes is block t of ONE
  function of the five arrays: every entry times the gate of its sample and channel. The 8 blocks tile the 32768 rows,
  so after the run the result array is that function.
-/
import proofs.«134633_g2000103765949958_pallasbulk_761_9_alg».proof.Proof.KPay
import proofs.«134633_g2000103765949958_pallasbulk_761_9_alg».proof.Proof.Gen.KernelIdeal.Frame
import Idealize.ShloMosaic.Lib.Pipeline.Value
import Idealize.ShloMosaic.Lib.ValueIdx

noncomputable section

namespace Cert.KernelIdeal.KValue

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

variable (m : (ℓ : Loc nD τ sig) → Buf (Elt Ideal) ℓ)

/-! ## The function the result array ends holding -/

/-- Row r, channel c of the result from the five arrays the steps read: the entry of the flattened map times the gate
    of its sample — the sample of row r occupies rows (r / 1024) · 1024 + k, k < 1024 — and channel. -/
def scaledRows (A : S32768x512.Idx → EReal) (W1 : S512x32.Idx → EReal) (B1 : S1x32.Idx → EReal)
    (W2 : S32x512.Idx → EReal) (B2 : S1x512.Idx → EReal) (r : Fin 32768) (c : Fin 512) : EReal :=
  A (ix2 r c) * gateOf
    (fun c' => ∑ k : Fin 1024, A (ix2 (⟨r.val / 1024 * 1024 + k.val, by omega⟩ : Fin 32768) c'))
    (fun c' q => W1 (ix2 c' q)) (fun q => B1 (ix2 (0 : Fin 1) q))
    (fun q c' => W2 (ix2 q c')) (fun c' => B2 (ix2 (0 : Fin 1) c')) c

/-- The same as an array, over the five arrays as the kernel finds them. -/
def scaledArray (c : Dev nD) : S32768x512.Idx → EReal := fun i =>
  scaledRows (V m c main_v1) (V m c main_v2) (V m c main_v4) (V m c main_v3) (V m c main_v5) (i 0) (i 1)

/-- The gate depends on its five ingredients only through their values. -/
theorem gateOf_congr {tot tot' : Fin 512 → EReal} {W1 W1' : Fin 512 → Fin 32 → EReal} {B1 B1' : Fin 32 → EReal}
    {W2 W2' : Fin 32 → Fin 512 → EReal} {B2 B2' : Fin 512 → EReal}
    (h0 : ∀ c', tot c' = tot' c') (h1 : ∀ c' q, W1 c' q = W1' c' q) (h2 : ∀ q, B1 q = B1' q)
    (h3 : ∀ q c', W2 q c' = W2' q c') (h4 : ∀ c', B2 c' = B2' c') (c : Fin 512) :
    gateOf tot W1 B1 W2 B2 c = gateOf tot' W1' B1' W2' B2' c := by
  obtain rfl : tot = tot' := funext h0
  obtain rfl : W1 = W1' := funext fun c' => funext (h1 c')
  obtain rfl : B1 = B1' := funext h2
  obtain rfl : W2 = W2' := funext fun q => funext (h3 q)
  obtain rfl : B2 = B2' := funext h4
  rfl

/-! ## Where each step's blocks lie -/

theorem zero_offsets : (![0, 0] : Fin 2 → Nat) = fun _ => 0 := funext fun a => by fin_cases a <;> rfl

/-- There are 8 steps. -/
theorem step_lt (t : Fin cfg0.N) : t.val < 8 := by
  have h := t.isLt
  have hN : cfg0.N = 8 := N_0
  omega

/-- Step t takes block t along the rows of the map and of the result, and the one block of everything else. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row p of step t's block of the map is row t·4096 + p of the map. -/
theorem block_of_rows (c : Dev nD) (t : Fin cfg0.N) (p : Fin 4096) (q : Fin 512) :
    (iblk m c 0 t : S4096x512.Idx → EReal) (ix2 p q)
      = (V m c main_v1 : S32768x512.Idx → EReal)
          (ix2 (⟨t.val * 4096 + p.val, by have := step_lt t; omega⟩ : Fin 32768) q) := by
  obtain ⟨e0, e1, -⟩ := block_indices t
  show (V m c main_v1 : S32768x512.Idx → EReal) (((cfg0.win 0).blk t).view.emb (ix2 p q)) = _
  refine congrArg (V m c main_v1 : S32768x512.Idx → EReal) (funext fun a => Fin.ext ?_)
  match a with
  | ⟨0, _⟩ => show win0_0.index t (0 : Fin 2) * 4096 + 1 * p.val = t.val * 4096 + p.val; rw [e0]; omega
  | ⟨1, _⟩ => show win0_0.index t (1 : Fin 2) * 512 + 1 * q.val = q.val; rw [e1]; omega

/-- Every step holds the first layer's weights entire. -/
theorem block_of_weights1 (c : Dev nD) (t : Fin cfg0.N) (a : Fin 512) (b : Fin 32) :
    (iblk m c 1 t : S512x32.Idx → EReal) (ix2 a b) = (V m c main_v2 : S512x32.Idx → EReal) (ix2 a b) := by
  obtain ⟨-, -, e0, e1, -⟩ := block_indices t
  show (V m c main_v2 : S512x32.Idx → EReal) (((cfg0.win 1).blk t).view.emb (ix2 a b)) = _
  refine congrArg (V m c main_v2 : S512x32.Idx → EReal) (funext fun ax => Fin.ext ?_)
  match ax with
  | ⟨0, _⟩ => show win0_1.index t (0 : Fin 2) * 512 + 1 * a.val = a.val; rw [e0]; omega
  | ⟨1, _⟩ => show win0_1.index t (1 : Fin 2) * 32 + 1 * b.val = b.val; rw [e1]; omega

/-- … the first bias row … -/
theorem block_of_bias1 (c : Dev nD) (t : Fin cfg0.N) (a : Fin 1) (b : Fin 32) :
    (iblk m c 2 t : S1x32.Idx → EReal) (ix2 a b) = (V m c main_v4 : S1x32.Idx → EReal) (ix2 a b) := by
  obtain ⟨-, -, -, -, e0, e1, -⟩ := block_indices t
  show (V m c main_v4 : S1x32.Idx → EReal) (((cfg0.win 2).blk t).view.emb (ix2 a b)) = _
  refine congrArg (V m c main_v4 : S1x32.Idx → EReal) (funext fun ax => Fin.ext ?_)
  match ax with
  | ⟨0, _⟩ => show win0_2.index t (0 : Fin 2) * 1 + 1 * a.val = a.val; rw [e0]; omega
  | ⟨1, _⟩ => show win0_2.index t (1 : Fin 2) * 32 + 1 * b.val = b.val; rw [e1]; omega

/-- … the second layer's weights … -/
theorem block_of_weights2 (c : Dev nD) (t : Fin cfg0.N) (a : Fin 32) (b : Fin 512) :
    (iblk m c 3 t : S32x512.Idx → EReal) (ix2 a b) = (V m c main_v3 : S32x512.Idx → EReal) (ix2 a b) := by
  obtain ⟨-, -, -, -, -, -, e0, e1, -⟩ := block_indices t
  show (V m c main_v3 : S32x512.Idx → EReal) (((cfg0.win 3).blk t).view.emb (ix2 a b)) = _
  refine congrArg (V m c main_v3 : S32x512.Idx → EReal) (funext fun ax => Fin.ext ?_)
  match ax with
  | ⟨0, _⟩ => show win0_3.index t (0 : Fin 2) * 32 + 1 * a.val = a.val; rw [e0]; omega
  | ⟨1, _⟩ => show win0_3.index t (1 : Fin 2) * 512 + 1 * b.val = b.val; rw [e1]; omega

/-- … and the second bias row. -/
theorem block_of_bias2 (c : Dev nD) (t : Fin cfg0.N) (a : Fin 1) (b : Fin 512) :
    (iblk m c 4 t : S1x512.Idx → EReal) (ix2 a b) = (V m c main_v5 : S1x512.Idx → EReal) (ix2 a b) := by
  obtain ⟨-, -, -, -, -, -, -, -, e0, e1, -⟩ := block_indices t
  show (V m c main_v5 : S1x512.Idx → EReal) (((cfg0.win 4).blk t).view.emb (ix2 a b)) = _
  refine congrArg (V m c main_v5 : S1x512.Idx → EReal) (funext fun ax => Fin.ext ?_)
  match ax with
  | ⟨0, _⟩ => show win0_4.index t (0 : Fin 2) * 1 + 1 * a.val = a.val; rw [e0]; omega
  | ⟨1, _⟩ => show win0_4.index t (1 : Fin 2) * 512 + 1 * b.val = b.val; rw [e1]; omega

/-! ## What a step writes back -/

/-- Step t writes block t of the scaled array: row p of its block is row t·4096 + p, whose sample's 1024 rows
    t·4096 + (p / 1024)·1024 + k are the rows ((t·4096 + p) / 1024)·1024 + k. -/
theorem step_writes (c : Dev nD) (t : Fin cfg0.N) :
    (dats m 0 c).flushed 5 t = ((cfg0.win 5).blk t).view.read (Elt Ideal) (scaledArray m c) := by
  show (cfg0.win 5).cut (grid0.coords t) ((dats m 0 c).after 5 t) = _
  rw [after0_5]
  unfold out0_5
  rw [View.canon_unit_zero zero_offsets]
  simp only [View.ld_unit_zero (S := S4096x512) zero_offsets, View.ld_unit_zero (S := S512x32) zero_offsets,
    View.ld_unit_zero (S := S1x32) zero_offsets, View.ld_unit_zero (S := S32x512) zero_offsets,
    View.ld_unit_zero (S := S1x512) zero_offsets]
  funext j
  obtain ⟨p, q, rfl⟩ : ∃ (p : Fin 4096) (q : Fin 512), j = ix2 p q := ⟨j 0, j 1, eq_ix2 j⟩
  obtain ⟨-, -, -, -, -, -, -, -, -, -, e0, e1⟩ := block_indices t
  have ht := step_lt t
  have hemb : ((cfg0.win 5).blk t).view.emb (ix2 p q)
      = (ix2 (⟨t.val * 4096 + p.val, by omega⟩ : Fin 32768) q : S32768x512.Idx) :=
    funext fun a => Fin.ext (by
      match a with
      | ⟨0, _⟩ => show win0_5.index t (0 : Fin 2) * 4096 + 1 * p.val = t.val * 4096 + p.val; rw [e0]; omega
      | ⟨1, _⟩ => show win0_5.index t (1 : Fin 2) * 512 + 1 * q.val = q.val; rw [e1]; omega)
  show Gen.k0_pay1 (F := Ideal) (iblk m c 0 t) (iblk m c 1 t) (iblk m c 2 t) (iblk m c 3 t) (iblk m c 4 t) (ix2 p q)
    = scaledArray m c (((cfg0.win 5).blk t).view.emb (ix2 p q))
  rw [hemb]
  refine (block_entry_gate _ _ _ _ _ p q).trans ?_
  show _ * gateOf _ _ _ _ _ q = scaledRows _ _ _ _ _ (⟨t.val * 4096 + p.val, by omega⟩ : Fin 32768) q
  unfold scaledRows
  refine congrArg₂ (· * ·) (block_of_rows m c t p q) (gateOf_congr ?_ ?_ ?_ ?_ ?_ q)
  · intro c'
    refine Finset.sum_congr rfl fun k _ => ?_
    refine (block_of_rows m c t _ c').trans ?_
    exact congrArg (fun r : Fin 32768 => (V m c main_v1 : S32768x512.Idx → EReal) (ix2 r c')) (Fin.ext (by
      show t.val * 4096 + (p.val / 1024 * 1024 + k.val) = (t.val * 4096 + p.val) / 1024 * 1024 + k.val
      omega))
  · exact fun c' q' => block_of_weights1 m c t c' q'
  · exact fun q' => block_of_bias1 m c t 0 q'
  · exact fun q' c' => block_of_weights2 m c t q' c'
  · exact fun c' => block_of_bias2 m c t 0 c'

/-! ## The blocks tile the rows -/

/-- A row is in step t's block iff it lies in t·4096 … t·4096 + 4095. -/
theorem mem_step_block (t : Fin cfg0.N) (i : S32768x512.Idx) :
    i ∈ ((cfg0.win 5).blk t).view.set
      ↔ ∀ a : Fin 2, win0_5.index t a * S4096x512.size a ≤ (i a).val
          ∧ (i a).val < win0_5.index t a * S4096x512.size a + S4096x512.size a := by
  show i ∈ ((View.whole main_v6).slice (win0_5.rect t)).set ↔ _
  rw [View.set_slice_whole, Rect.mem_set_unit]
  exact Iff.rfl

/-- Row r is written by step r / 4096. -/
theorem rows_covered (i : S32768x512.Idx) :
    ∃ t : Fin cfg0.N, (cfg0.win 5).flush t = true ∧ i ∈ ((cfg0.win 5).blk t).view.set := by
  have hi0 : (i 0).val < 32768 := idx2_lt0 i
  have hi1 : (i 1).val < 512 := idx2_lt1 i
  have hN : cfg0.N = 8 := N_0
  have hlt : (i 0).val / 4096 < cfg0.N := by omega
  refine ⟨⟨(i 0).val / 4096, hlt⟩, flush0_5 _, ?_⟩
  rw [mem_step_block]
  obtain ⟨-, -, -, -, -, -, -, -, -, -, e0, e1⟩ := block_indices ⟨(i 0).val / 4096, hlt⟩
  intro a
  match a with
  | ⟨0, _⟩ =>
    show win0_5.index ⟨(i 0).val / 4096, hlt⟩ (0 : Fin 2) * 4096 ≤ (i 0).val
      ∧ (i 0).val < win0_5.index ⟨(i 0).val / 4096, hlt⟩ (0 : Fin 2) * 4096 + 4096
    rw [e0]
    show (i 0).val / 4096 * 4096 ≤ (i 0).val ∧ (i 0).val < (i 0).val / 4096 * 4096 + 4096
    omega
  | ⟨1, _⟩ =>
    show win0_5.index ⟨(i 0).val / 4096, hlt⟩ (1 : Fin 2) * 512 ≤ (i 1).val
      ∧ (i 1).val < win0_5.index ⟨(i 0).val / 4096, hlt⟩ (1 : Fin 2) * 512 + 512
    rw [e1]
    omega

/-! ## The result array after the run -/

/-- After the 8 steps the result array holds the scaled array. -/
theorem rows_after (c : Dev nD) : (dats m 0 c).arrAt 5 cfg0.N = scaledArray m c :=
  (dats m 0 c).arrAt_eq_of_cover 5 (scaledArray m c) (fun t _ => step_writes m c t) rows_covered

end Cert.KernelIdeal.KValue

end
-- ==== Proof.KRun.lean ====
/-
  The kernel's program computes the squeeze-and-excitation function.

  After the 8 grid steps the [32768, 512] result array holds, at row n·1024 + h·32 + w and channel c, the flattened
  map's entry times the gate of sample n and channel c. The program then folds the rows back into (sample, row, column)
  and moves the channel axis second again, so its result at (n, c, h, w) is that entry: the map's entry (n, c, h, w)
  times the gate. The gate's totals run over the rows n·1024 + k of sample n, which are the map's entries
  (n, c', k / 32, k % 32): the same 1024 positions, in the same order, as the specification's sum — so the two agree
  term by term and no sum is re-indexed.
-/
import proofs.«134633_g2000103765949958_pallasbulk_761_9_alg».proof.Proof.Spec
import proofs.«134633_g2000103765949958_pallasbulk_761_9_alg».proof.Proof.KHost
import proofs.«134633_g2000103765949958_pallasbulk_761_9_alg».proof.Proof.KBlocks

noncomputable section

namespace Cert.KernelIdeal.KValue

open Cert.KernelIdeal Cert.KernelIdeal.Gen Idealize.ShloMosaic Idealize.ShloMosaic.TcCoe Idealize.SL.Sem
open Idealize.ShloMosaic.ValueIdx
open Idealize.ShloMosaic.Pipeline (Dat)
open Cert.SqueezeExcite (rowOf colOf rowOf_val colOf_val)
open scoped BigOperators

variable (m : (ℓ : Loc nD τ sig) → Buf (Elt Ideal) ℓ) (ρ : Dev nD → PrngReg)

/-! ## The program's result as the operations after the kernel applied to the scaled array -/

theorem result_term (c : Dev nD) :
    (Pipeline.afterTail₀ cfgs (dats m) 0 (V0 m) [hostOps1] c main_v8 : S32x512x32x32.Idx → EReal)
      = transpose S32x512x32x32 [0, 3, 1, 2]
          (shapeCast S32x32x32x512 (scaledArray m c) Gen.shapeCasts_S32768x512_S32x32x32x512)
          Gen.transposes_S32x32x32x512_S32x512x32x32_0_3_1_2 := by
  have e : Pipeline.withArrays (cfgs 0).spec c (V0 m c) (fun w => (dats m 0 c).arrAt w (cfgs 0).N)
      (Proc.devRef .tc main_v6) = scaledArray m c :=
    (Pipeline.withArrays_arr spec0 launch0.win.arr_inj c _ _ 5).trans (rows_after m c)
  unfold Pipeline.afterTail₀
  show StableHlo.after hostOps1 _ (Proc.devRef .tc main_v8) = _
  after_results
  rw [e]
  rfl

/-! ## The specification's gate is the kernel's -/

/-- The specification's gate, in the kernel's arrangement of its ingredients: the totals of sample n, the first
    weights by (channel, hidden unit), the second by (hidden unit, channel). -/
theorem spec_gate (x : SqueezeExcite.SX.Idx → EReal) (w1 : SqueezeExcite.SW1.Idx → EReal)
    (b1 : SqueezeExcite.SB1.Idx → EReal) (w2 : SqueezeExcite.SW2.Idx → EReal) (b2 : SqueezeExcite.SB2.Idx → EReal)
    (n : Fin 32) (ch : Fin 512) :
    SqueezeExcite.gate x w1 b1 w2 b2 n ch
      = gateOf (fun c' => ∑ k : Fin 1024, x (ix4 n c' (rowOf k) (colOf k)))
          (fun c' q => w1 (ix2 q c')) (fun q => b1 (ix1 q)) (fun q c' => w2 (ix2 c' q)) (fun c' => b2 (ix1 c')) ch := rfl

/-! ## The result, entry by entry -/

/-- The program's result at (n, ch, h, w) is the specification's. -/
theorem result_entry (c : Dev nD) (n : Fin 32) (ch : Fin 512) (h w : Fin 32) :
    (Pipeline.afterTail₀ cfgs (dats m) 0 (V0 m) [hostOps1] c main_v8 : S32x512x32x32.Idx → EReal) (ix4 n ch h w)
      = SqueezeExcite.result (m ((c : Thread nD τ).loc main_arg0)) (m ((c : Thread nD τ).loc main_arg1))
          (m ((c : Thread nD τ).loc main_arg2)) (m ((c : Thread nD τ).loc main_arg3))
          (m ((c : Thread nD τ).loc main_arg4)) (ix4 n ch h w) := by
  rw [result_term, SqueezeExcite.result_apply, spec_gate]
  -- the transpose back, then the fold of the rows
  refine (transpose_apply [0, 3, 1, 2] _ _ (ix4 n ch h w) (ix4 n h w ch) fun b =>
    match b with
    | ⟨0, _⟩ => rfl
    | ⟨1, _⟩ => rfl
    | ⟨2, _⟩ => rfl
    | ⟨3, _⟩ => rfl).trans ?_
  have hn := n.isLt; have hh := h.isLt; have hw := w.isLt
  refine (shapeCast_apply _ _ (ix4 n h w ch)
    (ix2 (⟨n.val * 1024 + h.val * 32 + w.val, by omega⟩ : Fin 32768) ch) ?_).trans ?_
  · rw [Shape.rowMajor_val_two, Shape.rowMajor_val_four]
    show (n.val * 1024 + h.val * 32 + w.val) * 512 + ch.val = ((n.val * 32 + h.val) * 32 + w.val) * 512 + ch.val
    omega
  -- the scaled array at that row, against the specification
  show scaledRows _ _ _ _ _ (⟨n.val * 1024 + h.val * 32 + w.val, by omega⟩ : Fin 32768) ch = _
  unfold scaledRows
  refine congrArg₂ (· * ·) (rows_entry m c _ ch n h w rfl) (gateOf_congr ?_ ?_ ?_ ?_ ?_ ch)
  · intro c'
    refine Finset.sum_congr rfl fun k _ => ?_
    refine rows_entry m c _ c' n (rowOf k) (colOf k) ?_
    have hk := k.isLt
    show (n.val * 1024 + h.val * 32 + w.val) / 1024 * 1024 + k.val = n.val * 1024 + (rowOf k).val * 32 + (colOf k).val
    rw [rowOf_val, colOf_val]
    omega
  · exact fun c' q => weights1_entry m c c' q
  · exact fun q => bias1_entry m c 0 q
  · exact fun q c' => weights2_entry m c q c'
  · exact fun c' => bias2_entry m c 0 c'

/-- The program's result is the specification's function of its five arguments. -/
theorem result_eq (c : Dev nD) :
    (Pipeline.afterTail₀ cfgs (dats m) 0 (V0 m) [hostOps1] c main_v8 : S32x512x32x32.Idx → EReal)
      = SqueezeExcite.result (m ((c : Thread nD τ).loc main_arg0)) (m ((c : Thread nD τ).loc main_arg1))
          (m ((c : Thread nD τ).loc main_arg2)) (m ((c : Thread nD τ).loc main_arg3))
          (m ((c : Thread nD τ).loc main_arg4)) := by
  funext i
  obtain ⟨n, ch, h, w, rfl⟩ : ∃ (n : Fin 32) (ch : Fin 512) (h w : Fin 32), i = ix4 n ch h w :=
    ⟨i 0, i 1, i 2, i 3, eq_ix4 i⟩
  exact result_entry m c n ch h w

/-! ## The run -/

/-- Every run of the kernel's program ends with its result at the specification's function of the five arguments, and
    the arguments as they were. -/
theorem run :
    θ_run (Cert.KernelIdeal.defs (F := Ideal)) (onTc (τ := Cert.KernelIdeal.τ) (Cert.KernelIdeal.main (F := Ideal)))
      ⟨m, fun _ => 0, ρ⟩ (fun r => ∀ c : Dev Cert.KernelIdeal.nD,
        r.2.mem ((c.tc : Thread Cert.KernelIdeal.nD Cert.KernelIdeal.τ).loc Cert.KernelIdeal.main_v8)
          = Cert.SqueezeExcite.result
              (m ((c.tc : Thread Cert.KernelIdeal.nD Cert.KernelIdeal.τ).loc Cert.KernelIdeal.main_arg0))
              (m ((c.tc : Thread Cert.KernelIdeal.nD Cert.KernelIdeal.τ).loc Cert.KernelIdeal.main_arg1))
              (m ((c.tc : Thread Cert.KernelIdeal.nD Cert.KernelIdeal.τ).loc Cert.KernelIdeal.main_arg2))
              (m ((c.tc : Thread Cert.KernelIdeal.nD Cert.KernelIdeal.τ).loc Cert.KernelIdeal.main_arg3))
              (m ((c.tc : Thread Cert.KernelIdeal.nD Cert.KernelIdeal.τ).loc Cert.KernelIdeal.main_arg4))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)) :=
  (θ_run defs _ _).mono (fun _ h c =>
    ⟨((h c).2 main_v8 (Pipeline.mem_restRefs_of main_v8 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.KValue

end
-- ==== Proof.LibReadBack.lean ====
/-
  Reading a buffer back after stores.

  A kernel body that keeps a running value in a scratch buffer stores it whole and loads it whole, several times in a
  row. The symbolic run records such a load as a read over the LIST of stores made so far, latest first. When the
  latest store overwrote the whole buffer, the load returns that store's payload and the earlier stores do not matter.
  The library has this for a list of ONE store; here it is for any list.
-/
import Idealize.ShloMosaic.Lib.Pipeline.Value

noncomputable section

open Idealize.ShloMosaic

namespace Cert.Lib

/-- Reading a whole buffer back (a load through the whole-shape rectangle at zero offsets, however the zeros are spelt)
    after a list of stores, latest first, whose LATEST one went through that same rectangle returns that store's
    payload `w`, whatever the earlier stores `L` were. -/
theorem readCov_last_whole {sig : RefSig} {κ : Kind} {sp : Space} {S : Shape} {e : EltTy} {Val : EltTy → Type}
    [∀ e, Nonempty (Val e)] (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, by
    show y ∈ (Rect.whole S).set; rw [Rect.set_whole]; exact Finset.mem_univ y⟩),
    View.canon_cons_unit_zero rfl, View.ld_unit_zero rfl]

end Cert.Lib

end
-- ==== Proof.RPoolPiece.lean ====
/-
  The pooling-and-gating body of the reference's first call, as one pure term.

  At every grid point the body (i) clears an [8, 512] accumulator, (ii) reads it back and adds the lane sums of its
  [8, 512, 1024] block of the feature map, storing the sum in the accumulator again, and (iii) reads the accumulator a
  last time and stores the gate computed from it in the output's buffer. Each read of the accumulator returns what the
  latest store left there, so the output's buffer ends holding the third stage applied to the second applied to the
  first: the composition of the three payload terms, with no memory left in the statement.
-/
import proofs.«134633_g2000103765949958_pallasbulk_761_9_alg».proof.Proof.Gen.ReferenceIdeal.Frame
import proofs.«134633_g2000103765949958_pallasbulk_761_9_alg».proof.Proof.LibReadBack
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.ReferenceIdeal.RValue

open Cert.ReferenceIdeal Cert.ReferenceIdeal.Gen

variable {F : FTy → Type} [FloatOps F]

theorem zeros2 : (![0, 0] : Fin 2 → Nat) = fun _ => 0 := funext fun a => by fin_cases a <;> rfl
theorem zeros3 : (![0, 0, 0] : Fin 3 → Nat) = fun _ => 0 := funext fun a => by fin_cases a <;> rfl

/-- What the body leaves in the output's staging buffer: the gate stage of the accumulate stage of the cleared
    accumulator and the block of the map, with the four small operands as they were loaded. -/
theorem out_eq (c : Dev nD) (i : grid0.Coords) (arg2 : Memref sig .tc .vmem S8x512x1024 .f32) (harg2 : arg2.IsWhole) (arg3 : Memref sig .tc .vmem S512x32 .f32) (harg3 : arg3.IsWhole) (arg4 : Memref sig .tc .vmem S1x32 .f32) (harg4 : arg4.IsWhole) (arg5 : Memref sig .tc .vmem S32x512 .f32) (harg5 : arg5.IsWhole) (arg6 : Memref sig .tc .vmem S1x512 .f32) (harg6 : arg6.IsWhole) (arg7 : Memref sig .tc .vmem S8x512 .f32) (harg7 : arg7.IsWhole) (arg8 : Memref sig .tc .vmem S8x512 .f32) (harg8 : arg8.IsWhole) (hc0 : cond0_0 i) (hc1 : cond0_1 i)
    (x0 : Vec F S8x512x1024 .f32) (x1 : Vec F S512x32 .f32) (x2 : Vec F S1x32 .f32) (x3 : Vec F S32x512 .f32) (x4 : Vec F S1x512 .f32) :
    out0_A_5 c i arg2 harg2 arg3 harg3 arg4 harg4 arg5 harg5 arg6 harg6 arg7 harg7 arg8 harg8 hc0 hc1 x0 x1 x2 x3 x4
      = k0_pay3 (k0_pay2 k0_pay1 x0) x1 x2 x3 x4 := by
  unfold out0_A_5
  rw [View.read_writes_eq_canon _ _ _ (cover0_A_5 c i arg2 harg2 arg3 harg3 arg4 harg4 arg5 harg5 arg6 harg6 arg7 harg7 arg8 harg8 hc0 hc1 x0 x1 x2 x3 x4)]
  unfold kernelRun0_A
  dsimp only
  sl_unfold_words
  rw [View.canon_unit_zero zeros2, Cert.Lib.readCov_last_whole _ zeros2, View.readCov_unit_zero _ zeros2]
  simp only [View.readAt_eq_ld, harg2.read_unread, harg3.read_unread, harg4.read_unread, harg5.read_unread, harg6.read_unread,
    View.ld_unit_zero (S := S8x512x1024) zeros3, View.ld_unit_zero (S := S512x32) zeros2, View.ld_unit_zero (S := S1x32) zeros2,
    View.ld_unit_zero (S := S32x512) zeros2, View.ld_unit_zero (S := S1x512) zeros2]

end Cert.ReferenceIdeal.RValue

end
-- ==== Proof.RPoolPay.lean ====
/-
  The pooling-and-gating body of the reference's first call, read at an index, on the extended reals.

  For a block `x0 : [8, 512, 1024]` of the feature map (8 samples, every channel, every position), the transposed
  weights `x1 : [512, 32]`, `x3 : [32, 512]` and the bias rows `x2 : [1, 32]`, `x4 : [1, 512]`, entry (p, c) of what
  the body stores is

    logistic (Σ_r max (Σ_c' ((0 + Σ_k x0 p c' k) · 2⁻¹⁰) · x1 c' r + x2 0 r) 0 · x3 r c + x4 0 c):

  the lane sum of sample p's channel c' added to the cleared accumulator, scaled to a mean, through the two dense layers.
  Each matrix product into a zero accumulator is the plain sum over its one contracted axis; each bias row is read at
  row 0 whatever the sample.
-/
import proofs.«134633_g2000103765949958_pallasbulk_761_9_alg».proof.Proof.Gen.ReferenceIdeal.Skeleton
import Idealize.ShloMosaic.Lib.Pipeline.Value
import Idealize.ShloMosaic.Lib.ValueIdx
import Idealize.ShloMosaic.PureOps.Ideal.Laws

noncomputable section

open Idealize.ShloMosaic Idealize.ShloMosaic.ValueIdx
open scoped BigOperators

namespace Cert.ReferenceIdeal.RValue

open Cert.ReferenceIdeal Cert.ReferenceIdeal.Gen

/-- The first dense layer's product, [8, 512] by [512, 32] into zeros: entry (p, q) sums over the 512 channels. -/
theorem dense1_apply (l : FVec Ideal S8x512 .f32) (r : FVec Ideal S512x32 .f32) (p : Fin 8) (q : Fin 32) :
    matmul dot_S8x512_S512x32_S8x32_1_0_0_1_n_n none l r (constant (F := Ideal) S8x32 .f32 0x00000000#32) (ix2 p q)
      = ∑ k : Fin 512, l (ix2 p k) * r (ix2 k q) := by
  refine (Ideal.matmul_constant_zero_apply dot_S8x512_S512x32_S8x32_1_0_0_1_n_n none l r (ix2 p q)).trans ?_
  rw [← Equiv.sum_comp (contrEquiv1 dot_S8x512_S512x32_S8x32_1_0_0_1_n_n 512 rfl rfl).symm]
  refine Finset.sum_congr rfl fun k _ => ?_
  have hl : dot_S8x512_S512x32_S8x32_1_0_0_1_n_n.lhsIdx (ix2 p q) ((contrEquiv1 dot_S8x512_S512x32_S8x32_1_0_0_1_n_n 512 rfl rfl).symm k) = ix2 p k := by
    funext a
    apply Fin.ext
    match a with
    | ⟨0, _⟩ => rfl
    | ⟨1, _⟩ =>
      exact (DotDims.lhsIdx_val_of_single (d := dot_S8x512_S512x32_S8x32_1_0_0_1_n_n) (cl := 1) rfl _ _).trans
        (contrEquiv1_symm_val _ 512 rfl rfl k)
  have hr : dot_S8x512_S512x32_S8x32_1_0_0_1_n_n.rhsIdx (ix2 p q) ((contrEquiv1 dot_S8x512_S512x32_S8x32_1_0_0_1_n_n 512 rfl rfl).symm k) = ix2 k q := by
    funext a
    apply Fin.ext
    match a with
    | ⟨0, _⟩ =>
      exact (DotDims.rhsIdx_val_of_single (d := dot_S8x512_S512x32_S8x32_1_0_0_1_n_n) (cr := 0) rfl _ _).trans
        (contrEquiv1_symm_val _ 512 rfl rfl k)
    | ⟨1, _⟩ => rfl
  rw [hl, hr]

/-- The second dense layer's product, [8, 32] by [32, 512] into zeros: entry (p, q) sums over the 32 hidden units. -/
theorem dense2_apply (l : FVec Ideal S8x32 .f32) (r : FVec Ideal S32x512 .f32) (p : Fin 8) (q : Fin 512) :
    matmul dot_S8x32_S32x512_S8x512_1_0_0_1_n_n none l r (constant (F := Ideal) S8x512 .f32 0x00000000#32) (ix2 p q)
      = ∑ k : Fin 32, l (ix2 p k) * r (ix2 k q) := by
  refine (Ideal.matmul_constant_zero_apply dot_S8x32_S32x512_S8x512_1_0_0_1_n_n none l r (ix2 p q)).trans ?_
  rw [← Equiv.sum_comp (contrEquiv1 dot_S8x32_S32x512_S8x512_1_0_0_1_n_n 32 rfl rfl).symm]
  refine Finset.sum_congr rfl fun k _ => ?_
  have hl : dot_S8x32_S32x512_S8x512_1_0_0_1_n_n.lhsIdx (ix2 p q) ((contrEquiv1 dot_S8x32_S32x512_S8x512_1_0_0_1_n_n 32 rfl rfl).symm k) = ix2 p k := by
    funext a
    apply Fin.ext
    match a with
    | ⟨0, _⟩ => rfl
    | ⟨1, _⟩ =>
      exact (DotDims.lhsIdx_val_of_single (d := dot_S8x32_S32x512_S8x512_1_0_0_1_n_n) (cl := 1) rfl _ _).trans
        (contrEquiv1_symm_val _ 32 rfl rfl k)
  have hr : dot_S8x32_S32x512_S8x512_1_0_0_1_n_n.rhsIdx (ix2 p q) ((contrEquiv1 dot_S8x32_S32x512_S8x512_1_0_0_1_n_n 32 rfl rfl).symm k) = ix2 k q := by
    funext a
    apply Fin.ext
    match a with
    | ⟨0, _⟩ =>
      exact (DotDims.rhsIdx_val_of_single (d := dot_S8x32_S32x512_S8x512_1_0_0_1_n_n) (cr := 0) rfl _ _).trans
        (contrEquiv1_symm_val _ 32 rfl rfl k)
    | ⟨1, _⟩ => rfl
  rw [hl, hr]

/-- A [1, 32] row broadcast down 8 rows reads row 0. -/
theorem biasRow1_apply (x2 : FVec Ideal S1x32 .f32) (p : Fin 8) (q : Fin 32) :
    broadcastTo S8x32 x2 broadcasts_S1x32_S8x32 (ix2 p q) = x2 (ix2 0 q) :=
  broadcastTo_apply x2 broadcasts_S1x32_S8x32 (ix2 p q) (ix2 0 q) fun a => by
    match a with
    | ⟨0, _⟩ => rfl
    | ⟨1, _⟩ => rfl

/-- A [1, 512] row broadcast down 8 rows reads row 0. -/
theorem biasRow2_apply (x4 : FVec Ideal S1x512 .f32) (p : Fin 8) (q : Fin 512) :
    broadcastTo S8x512 x4 broadcasts_S1x512_S8x512 (ix2 p q) = x4 (ix2 0 q) :=
  broadcastTo_apply x4 broadcasts_S1x512_S8x512 (ix2 p q) (ix2 0 q) fun a => by
    match a with
    | ⟨0, _⟩ => rfl
    | ⟨1, _⟩ => rfl

/-- The accumulator after the second stage: the cleared value plus the sum of the block over its 1024 positions. -/
theorem accum_apply (x0 : Vec Ideal S8x512x1024 .f32) (p : Fin 8) (c : Fin 512) :
    k0_pay2 (F := Ideal) (k0_pay1 (F := Ideal)) x0 (ix2 p c) = Ideal.ofBits .f32 0x00000000#32 + ∑ k : Fin 1024, x0 (ix3 p c k) := by
  unfold k0_pay2 k0_pay1
  dsimp only
  simp only [shapeCast_self]
  show Ideal.ofBits .f32 0x00000000#32 + multiReduction .add [2] S8x512 x0 _ reduces_S8x512x1024_S8x512 _ _ (ix2 p c) = _
  refine congrArg (Ideal.ofBits .f32 0x00000000#32 + ·) ?_
  refine (Ideal.multiReduction_add_single x0 _ reduces_S8x512x1024_S8x512 _ _ (ix2 p c)).trans ?_
  show ∑ k : Fin 1024, x0 (reduces_S8x512x1024_S8x512.lift (ix2 p c) k) = _
  refine Finset.sum_congr rfl fun k _ => congrArg x0 ?_
  funext a
  apply Fin.ext
  match a with
  | ⟨0, _⟩ => rfl
  | ⟨1, _⟩ => rfl
  | ⟨2, _⟩ => rfl

/-- The gate of row `p`, channel `c`, from an accumulator `acc` and the four small operands. -/
def gateOf (acc : S8x512.Idx → EReal) (x1 : S512x32.Idx → EReal) (x2 : S1x32.Idx → EReal) (x3 : S32x512.Idx → EReal)
    (x4 : S1x512.Idx → EReal) (p : Fin 8) (c : Fin 512) : EReal :=
  Ideal.logistic ((∑ r : Fin 32,
      max ((∑ c' : Fin 512, (acc (ix2 p c') * Ideal.ofBits .f32 0x3A800000#32) * x1 (ix2 c' r)) + x2 (ix2 0 r))
        (Ideal.ofBits .f32 0x00000000#32) * x3 (ix2 r c)) + x4 (ix2 0 c))

/-- The third stage at an index: the accumulator scaled to a mean, through the two dense layers and the logistic. -/
theorem gate_apply (v14 : Vec Ideal S8x512 .f32) (x1 : Vec Ideal S512x32 .f32) (x2 : Vec Ideal S1x32 .f32)
    (x3 : Vec Ideal S32x512 .f32) (x4 : Vec Ideal S1x512 .f32) (p : Fin 8) (c : Fin 512) :
    k0_pay3 (F := Ideal) v14 x1 x2 x3 x4 (ix2 p c) = gateOf v14 x1 x2 x3 x4 p c := by
  unfold k0_pay3
  simp only [shapeCast_self]
  show Ideal.logistic (matmul dot_S8x32_S32x512_S8x512_1_0_0_1_n_n none _ x3 (constant (F := Ideal) S8x512 .f32 0x00000000#32) (ix2 p c)
    + broadcastTo S8x512 x4 broadcasts_S1x512_S8x512 (ix2 p c)) = _
  rw [dense2_apply, biasRow2_apply]
  unfold gateOf
  refine congrArg (fun s => Ideal.logistic (s + x4 (ix2 0 c))) (Finset.sum_congr rfl fun r _ => ?_)
  refine congrArg (· * x3 (ix2 r c)) ?_
  show max (matmul dot_S8x512_S512x32_S8x32_1_0_0_1_n_n none _ x1 (constant (F := Ideal) S8x32 .f32 0x00000000#32) (ix2 p r)
    + broadcastTo S8x32 x2 broadcasts_S1x32_S8x32 (ix2 p r)) (Ideal.ofBits .f32 0x00000000#32) = _
  rw [dense1_apply, biasRow1_apply]
  rfl

end Cert.ReferenceIdeal.RValue

end
-- ==== Proof.RPoolEntry.lean ====
/-
  The arrays the reference's first call finds, read at an index.

  Before the call the host lays the arguments out again: the two weight matrices transposed, the two bias vectors as
  one-row matrices, and the feature map with its 32 × 32 positions flattened to one axis of 1024. None of this computes
  anything; each entry of a new array is one entry of an argument:

    flattened map (n, c, k)  =  x (n, c, k / 32, k % 32)        w1ᵀ (c, r) = w1 (r, c)      w2ᵀ (r, c) = w2 (c, r)
    b1 as a row (0, r) = b1 r                                   b2 as a row (0, c) = b2 c
-/
import proofs.«134633_g2000103765949958_pallasbulk_761_9_alg».proof.Proof.Gen.ReferenceIdeal.Frame
import proofs.«134633_g2000103765949958_pallasbulk_761_9_alg».proof.Proof.Spec
import Idealize.ShloMosaic.Lib.Pipeline.Value
import Idealize.ShloMosaic.Lib.ValueIdx
import Idealize.ShloMosaic.Lib.StableHlo.Run
import Idealize.ShloMosaic.Lib.Tactic

noncomputable section

open Idealize.ShloMosaic Idealize.ShloMosaic.TcCoe Idealize.SL.Sem Idealize.ShloMosaic.ValueIdx
open Cert.SqueezeExcite (rowOf colOf)

namespace Cert.ReferenceIdeal.RValue

open Cert.ReferenceIdeal Cert.ReferenceIdeal.Gen

variable {F : FTy → Type} [FloatOps F]
variable (m : (ℓ : Loc nD τ sig) → Buf (Elt F) ℓ) (ρ : Dev nD → PrngReg)

/-! ## The five arrays as layout operations of the arguments -/

theorem entry_map (c : Dev nD) :
    (V1 m ρ c main_v4 : S32x512x1024.Idx → Elt F .f32)
      = shapeCast S32x512x1024 (m ((c : Thread nD τ).loc main_arg0)) shapeCasts_S32x512x32x32_S32x512x1024 := by
  show StableHlo.after hostOps0 (W0 m ρ c) (Proc.devRef .tc main_v4) = _
  after_results
  all_goals rfl

theorem entry_w1t (c : Dev nD) :
    (V1 m ρ c main_v0 : S512x32.Idx → Elt F .f32)
      = transpose S512x32 [1, 0] (m ((c : Thread nD τ).loc main_arg1)) transposes_S32x512_S512x32_1_0 := by
  show StableHlo.after hostOps0 (W0 m ρ c) (Proc.devRef .tc main_v0) = _
  after_results
  all_goals rfl

theorem entry_w2t (c : Dev nD) :
    (V1 m ρ c main_v1 : S32x512.Idx → Elt F .f32)
      = transpose S32x512 [1, 0] (m ((c : Thread nD τ).loc main_arg3)) transposes_S512x32_S32x512_1_0 := by
  show StableHlo.after hostOps0 (W0 m ρ c) (Proc.devRef .tc main_v1) = _
  after_results
  all_goals rfl

theorem entry_b1row (c : Dev nD) :
    (V1 m ρ c main_v2 : S1x32.Idx → Elt F .f32)
      = shapeCast S1x32 (m ((c : Thread nD τ).loc main_arg2)) shapeCasts_S32_S1x32 := by
  show StableHlo.after hostOps0 (W0 m ρ c) (Proc.devRef .tc main_v2) = _
  after_results
  all_goals rfl

theorem entry_b2row (c : Dev nD) :
    (V1 m ρ c main_v3 : S1x512.Idx → Elt F .f32)
      = shapeCast S1x512 (m ((c : Thread nD τ).loc main_arg4)) shapeCasts_S512_S1x512 := by
  show StableHlo.after hostOps0 (W0 m ρ c) (Proc.devRef .tc main_v3) = _
  after_results
  all_goals rfl

/-! ## Each read at an index -/

/-- Position `k` of the flattened map is row `k / 32`, column `k % 32`: the same row-major position. -/
theorem entry_map_apply (c : Dev nD) (n : Fin 32) (ch : Fin 512) (k : Fin 1024) :
    (V1 m ρ c main_v4 : S32x512x1024.Idx → Elt F .f32) (ix3 n ch k)
      = (m ((c : Thread nD τ).loc main_arg0) : S32x512x32x32.Idx → Elt F .f32) (ix4 n ch (rowOf k) (colOf k)) := by
  rw [entry_map]
  refine shapeCast_apply _ _ (ix3 n ch k) (ix4 n ch (rowOf k) (colOf k)) ?_
  rw [Shape.rowMajor_val_four, Shape.rowMajor_val_three]
  show ((n.val * 512 + ch.val) * 32 + k.val / 32) * 32 + k.val % 32 = (n.val * 512 + ch.val) * 1024 + k.val
  omega

theorem entry_w1t_apply (c : Dev nD) (ch : Fin 512) (r : Fin 32) :
    (V1 m ρ c main_v0 : S512x32.Idx → Elt F .f32) (ix2 ch r)
      = (m ((c : Thread nD τ).loc main_arg1) : S32x512.Idx → Elt F .f32) (ix2 r ch) := by
  rw [entry_w1t]
  refine transpose_apply _ _ _ (ix2 ch r) (ix2 r ch) fun b => ?_
  match b with
  | ⟨0, _⟩ => rfl
  | ⟨1, _⟩ => rfl

theorem entry_w2t_apply (c : Dev nD) (r : Fin 32) (ch : Fin 512) :
    (V1 m ρ c main_v1 : S32x512.Idx → Elt F .f32) (ix2 r ch)
      = (m ((c : Thread nD τ).loc main_arg3) : S512x32.Idx → Elt F .f32) (ix2 ch r) := by
  rw [entry_w2t]
  refine transpose_apply _ _ _ (ix2 r ch) (ix2 ch r) fun b => ?_
  match b with
  | ⟨0, _⟩ => rfl
  | ⟨1, _⟩ => rfl

theorem entry_b1row_apply (c : Dev nD) (z : Fin 1) (r : Fin 32) :
    (V1 m ρ c main_v2 : S1x32.Idx → Elt F .f32) (ix2 z r)
      = (m ((c : Thread nD τ).loc main_arg2) : S32.Idx → Elt F .f32) (ix1 r) := by
  rw [entry_b1row]
  refine shapeCast_apply _ _ (ix2 z r) (ix1 r) ?_
  rw [Shape.rowMajor_val_one, Shape.rowMajor_val_two]
  show r.val = z.val * 32 + r.val
  have := z.isLt
  omega

theorem entry_b2row_apply (c : Dev nD) (z : Fin 1) (ch : Fin 512) :
    (V1 m ρ c main_v3 : S1x512.Idx → Elt F .f32) (ix2 z ch)
      = (m ((c : Thread nD τ).loc main_arg4) : S512.Idx → Elt F .f32) (ix1 ch) := by
  rw [entry_b2row]
  refine shapeCast_apply _ _ (ix2 z ch) (ix1 ch) ?_
  rw [Shape.rowMajor_val_one, Shape.rowMajor_val_two]
  show ch.val = z.val * 512 + ch.val
  have := z.isLt
  omega

end Cert.ReferenceIdeal.RValue

end
-- ==== Proof.RPoolValue.lean ====
/-
  What the reference's first call leaves in its result array: the gate of every sample and channel.

  The call's grid has four points; point `t` stages samples `8t … 8t + 7` of the flattened feature map (every channel,
  every position) and the four small operands whole, and writes back rows `8t … 8t + 7` of the [32, 512] result. The
  body's stored value at row `p`, channel `c` of its block is the gate formula over the block; read through the windows,
  the block's sample `p` is sample `8t + p` of the map, so what point `t` writes back is rows `8t … 8t + 7` of ONE
  array, `gates`: entry (n, c) the gate of sample `n`, channel `c`. The four blocks of eight rows tile the 32 rows,
  so the array ends holding `gates`.
-/
import proofs.«134633_g2000103765949958_pallasbulk_761_9_alg».proof.Proof.RPoolPiece
import proofs.«134633_g2000103765949958_pallasbulk_761_9_alg».proof.Proof.RPoolPay
import proofs.«134633_g2000103765949958_pallasbulk_761_9_alg».proof.Proof.RPoolEntry
import proofs.«134633_g2000103765949958_pallasbulk_761_9_alg».proof.Proof.Spec

noncomputable section

open Idealize.ShloMosaic Idealize.ShloMosaic.TcCoe Idealize.SL.Sem Idealize.ShloMosaic.ValueIdx
open Idealize.ShloMosaic.Pipeline (Dat)
open Cert.SqueezeExcite (rowOf colOf total gate)
open scoped BigOperators

namespace Cert.ReferenceIdeal.RValue

open Cert.ReferenceIdeal Cert.ReferenceIdeal.Gen

variable (m : (ℓ : Loc nD τ sig) → Buf (Elt Ideal) ℓ) (ρ : Dev nD → PrngReg)

/-- The gate formula over a block's operands is the specification's gate, once each operand is identified with the
    argument it was laid out from and the cleared accumulator with zero. -/
theorem gateOf_eq (acc : S8x512.Idx → EReal) (X1 : S512x32.Idx → EReal) (X2 : S1x32.Idx → EReal) (X3 : S32x512.Idx → EReal)
    (X4 : S1x512.Idx → EReal) (x : Cert.SqueezeExcite.SX.Idx → EReal) (w1 : Cert.SqueezeExcite.SW1.Idx → EReal)
    (b1 : Cert.SqueezeExcite.SB1.Idx → EReal) (w2 : Cert.SqueezeExcite.SW2.Idx → EReal) (b2 : Cert.SqueezeExcite.SB2.Idx → EReal)
    (p : Fin 8) (ch : Fin 512) (n : Fin 32)
    (hacc : ∀ c', acc (ix2 p c') = Ideal.ofBits .f32 0x00000000#32 + total x n c')
    (h1 : ∀ c' r, X1 (ix2 c' r) = w1 (ix2 r c')) (h2 : ∀ r, X2 (ix2 0 r) = b1 (ix1 r))
    (h3 : ∀ r c', X3 (ix2 r c') = w2 (ix2 c' r)) (h4 : ∀ c', X4 (ix2 0 c') = b2 (ix1 c')) :
    gateOf acc X1 X2 X3 X4 p ch = gate x w1 b1 w2 b2 n ch := by
  unfold gateOf Cert.SqueezeExcite.gate Cert.SqueezeExcite.hidden Cert.SqueezeExcite.mean
  simp only [hacc, h1, h2, h3, h4, Ideal.ofBits_zero_f32, zero_add]

/-- The third stage at any index of its block. -/
theorem pay_at (X0 : Vec Ideal S8x512x1024 .f32) (X1 : Vec Ideal S512x32 .f32) (X2 : Vec Ideal S1x32 .f32)
    (X3 : Vec Ideal S32x512 .f32) (X4 : Vec Ideal S1x512 .f32) (y : S8x512.Idx) :
    k0_pay3 (F := Ideal) (k0_pay2 (F := Ideal) (k0_pay1 (F := Ideal)) X0) X1 X2 X3 X4 y
      = gateOf (k0_pay2 (F := Ideal) (k0_pay1 (F := Ideal)) X0) X1 X2 X3 X4 (y 0) (y 1) :=
  (congrArg (k0_pay3 (F := Ideal) (k0_pay2 (F := Ideal) (k0_pay1 (F := Ideal)) X0) X1 X2 X3 X4) (eq_ix2 y)).trans
    (gate_apply _ X1 X2 X3 X4 (y 0) (y 1))

/-- The windows' block indices at point `t`: the map's and the result's blocks move with `t` along the sample axis,
    the four small operands stay at block (0, 0). Decided over the four points. -/
theorem pool_idx : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-! ## The staged blocks, read as entries of the arguments -/

theorem blk_map (c : Dev nD) (t : Fin cfg0.N) (y : S8x512x1024.Idx) (n : Fin 32) (hn : n.val = 8 * t.val + (y 0).val) :
    (iblk0 (V1 m ρ) c 0 t : S8x512x1024.Idx → Elt Ideal .f32) y
      = (m ((c : Thread nD τ).loc main_arg0) : S32x512x32x32.Idx → Elt Ideal .f32) (ix4 n (y 1) (rowOf (y 2)) (colOf (y 2))) := by
  unfold iblk0
  rw [View.read_apply]
  show (V1 m ρ c main_v4 : S32x512x1024.Idx → Elt Ideal .f32) (((cfg0.win 0).blk t).view.emb y) = _
  have e : ((cfg0.win 0).blk t).view.emb y = ix3 n (y 1) (y 2) := by
    obtain ⟨h0, h1, h2, -⟩ := pool_idx t
    funext a
    apply Fin.ext
    match a with
    | ⟨0, _⟩ => show win0_0.index t (0 : Fin 3) * 8 + 1 * (y 0).val = n.val; rw [h0]; omega
    | ⟨1, _⟩ => show win0_0.index t (1 : Fin 3) * 512 + 1 * (y 1).val = (y 1).val; rw [h1]; omega
    | ⟨2, _⟩ => show win0_0.index t (2 : Fin 3) * 1024 + 1 * (y 2).val = (y 2).val; rw [h2]; omega
  rw [e]
  exact entry_map_apply m ρ c n (y 1) (y 2)

theorem blk_w1t (c : Dev nD) (t : Fin cfg0.N) (ch : Fin 512) (r : Fin 32) :
    (iblk0 (V1 m ρ) c 1 t : S512x32.Idx → Elt Ideal .f32) (ix2 ch r)
      = (m ((c : Thread nD τ).loc main_arg1) : S32x512.Idx → Elt Ideal .f32) (ix2 r ch) := by
  unfold iblk0
  rw [View.read_apply]
  show (V1 m ρ c main_v0 : S512x32.Idx → Elt Ideal .f32) (((cfg0.win 1).blk t).view.emb (ix2 ch r)) = _
  have e : ((cfg0.win 1).blk t).view.emb (ix2 ch r) = ix2 ch r := by
    obtain ⟨-, -, -, h0, h1, -⟩ := pool_idx t
    funext a
    apply Fin.ext
    match a with
    | ⟨0, _⟩ => show win0_1.index t (0 : Fin 2) * 512 + 1 * ch.val = ch.val; rw [h0]; omega
    | ⟨1, _⟩ => show win0_1.index t (1 : Fin 2) * 32 + 1 * r.val = r.val; rw [h1]; omega
  rw [e]
  exact entry_w1t_apply m ρ c ch r

theorem blk_b1row (c : Dev nD) (t : Fin cfg0.N) (r : Fin 32) :
    (iblk0 (V1 m ρ) c 2 t : S1x32.Idx → Elt Ideal .f32) (ix2 0 r)
      = (m ((c : Thread nD τ).loc main_arg2) : S32.Idx → Elt Ideal .f32) (ix1 r) := by
  unfold iblk0
  rw [View.read_apply]
  show (V1 m ρ c main_v2 : S1x32.Idx → Elt Ideal .f32) (((cfg0.win 2).blk t).view.emb (ix2 0 r)) = _
  have e : ((cfg0.win 2).blk t).view.emb (ix2 (0 : Fin 1) r) = ix2 0 r := by
    obtain ⟨-, -, -, -, -, h0, h1, -⟩ := pool_idx t
    funext a
    apply Fin.ext
    match a with
    | ⟨0, _⟩ => show win0_2.index t (0 : Fin 2) * 1 + 1 * 0 = 0; rw [h0]
    | ⟨1, _⟩ => show win0_2.index t (1 : Fin 2) * 32 + 1 * r.val = r.val; rw [h1]; omega
  rw [e]
  exact entry_b1row_apply m ρ c 0 r

theorem blk_w2t (c : Dev nD) (t : Fin cfg0.N) (r : Fin 32) (ch : Fin 512) :
    (iblk0 (V1 m ρ) c 3 t : S32x512.Idx → Elt Ideal .f32) (ix2 r ch)
      = (m ((c : Thread nD τ).loc main_arg3) : S512x32.Idx → Elt Ideal .f32) (ix2 ch r) := by
  unfold iblk0
  rw [View.read_apply]
  show (V1 m ρ c main_v1 : S32x512.Idx → Elt Ideal .f32) (((cfg0.win 3).blk t).view.emb (ix2 r ch)) = _
  have e : ((cfg0.win 3).blk t).view.emb (ix2 r ch) = ix2 r ch := by
    obtain ⟨-, -, -, -, -, -, -, h0, h1, -⟩ := pool_idx t
    funext a
    apply Fin.ext
    match a with
    | ⟨0, _⟩ => show win0_3.index t (0 : Fin 2) * 32 + 1 * r.val = r.val; rw [h0]; omega
    | ⟨1, _⟩ => show win0_3.index t (1 : Fin 2) * 512 + 1 * ch.val = ch.val; rw [h1]; omega
  rw [e]
  exact entry_w2t_apply m ρ c r ch

theorem blk_b2row (c : Dev nD) (t : Fin cfg0.N) (ch : Fin 512) :
    (iblk0 (V1 m ρ) c 4 t : S1x512.Idx → Elt Ideal .f32) (ix2 0 ch)
      = (m ((c : Thread nD τ).loc main_arg4) : S512.Idx → Elt Ideal .f32) (ix1 ch) := by
  unfold iblk0
  rw [View.read_apply]
  show (V1 m ρ c main_v3 : S1x512.Idx → Elt Ideal .f32) (((cfg0.win 4).blk t).view.emb (ix2 0 ch)) = _
  have e : ((cfg0.win 4).blk t).view.emb (ix2 (0 : Fin 1) ch) = ix2 0 ch := by
    obtain ⟨-, -, -, -, -, -, -, -, -, h0, h1, -⟩ := pool_idx t
    funext a
    apply Fin.ext
    match a with
    | ⟨0, _⟩ => show win0_4.index t (0 : Fin 2) * 1 + 1 * 0 = 0; rw [h0]
    | ⟨1, _⟩ => show win0_4.index t (1 : Fin 2) * 512 + 1 * ch.val = ch.val; rw [h1]; omega
  rw [e]
  exact entry_b2row_apply m ρ c 0 ch

/-! ## The result array -/

/-- The [32, 512] array of gates of the five arguments. -/
def gates (x : Cert.SqueezeExcite.SX.Idx → EReal) (w1 : Cert.SqueezeExcite.SW1.Idx → EReal) (b1 : Cert.SqueezeExcite.SB1.Idx → EReal)
    (w2 : Cert.SqueezeExcite.SW2.Idx → EReal) (b2 : Cert.SqueezeExcite.SB2.Idx → EReal) : S32x512.Idx → EReal :=
  fun i => gate x w1 b1 w2 b2 (i 0) (i 1)

/-- The gates of the arguments as core `c` holds them at launch. -/
abbrev gatesOf (c : Dev nD) : S32x512.Idx → EReal :=
  gates (m ((c : Thread nD τ).loc main_arg0)) (m ((c : Thread nD τ).loc main_arg1)) (m ((c : Thread nD τ).loc main_arg2))
    (m ((c : Thread nD τ).loc main_arg3)) (m ((c : Thread nD τ).loc main_arg4))

/-- What point `t` writes back is rows `8t … 8t + 7` of the gates. -/
theorem flushed_pool (c : Dev nD) (t : Fin cfg0.N) :
    (dat0 (V1 m ρ) c).flushed 5 t = ((cfg0.win 5).blk t).view.read (Elt Ideal) (gatesOf m c) := by
  show (cfg0.win 5).cut (grid0.coords t) ((dat0 (V1 m ρ) c).after 5 t) = _
  rw [after0_5]
  unfold outsAt0
  rw [out_eq]
  obtain ⟨-, -, -, -, -, -, -, -, -, -, -, h0, h1⟩ := pool_idx t
  funext j
  have he0 : ((((cfg0.win 5).blk t).view.emb j) 0).val = 8 * t.val + (j 0).val := by
    show win0_5.index t (0 : Fin 2) * 8 + 1 * (j 0).val = _
    rw [h0]; omega
  have he1 : (((cfg0.win 5).blk t).view.emb j) 1 = j 1 := by
    apply Fin.ext
    show win0_5.index t (1 : Fin 2) * 512 + 1 * (j 1).val = _
    rw [h1]; omega
  show k0_pay3 (F := Ideal) (k0_pay2 (F := Ideal) (k0_pay1 (F := Ideal)) (iblk0 (V1 m ρ) c 0 t)) (iblk0 (V1 m ρ) c 1 t)
      (iblk0 (V1 m ρ) c 2 t) (iblk0 (V1 m ρ) c 3 t) (iblk0 (V1 m ρ) c 4 t) j
    = gate _ _ _ _ _ ((((cfg0.win 5).blk t).view.emb j) 0) ((((cfg0.win 5).blk t).view.emb j) 1)
  rw [he1]
  refine (pay_at (iblk0 (V1 m ρ) c 0 t) (iblk0 (V1 m ρ) c 1 t) (iblk0 (V1 m ρ) c 2 t) (iblk0 (V1 m ρ) c 3 t)
    (iblk0 (V1 m ρ) c 4 t) j).trans ?_
  refine gateOf_eq _ _ _ _ _ _ _ _ _ _ (j 0) (j 1) ((((cfg0.win 5).blk t).view.emb j) 0) (fun c' => ?_)
    (fun c' r => blk_w1t m ρ c t c' r) (fun r => blk_b1row m ρ c t r) (fun r c' => blk_w2t m ρ c t r c')
    (fun c' => blk_b2row m ρ c t c')
  refine (accum_apply (iblk0 (V1 m ρ) c 0 t) (j 0) c').trans (congrArg (Ideal.ofBits .f32 0x00000000#32 + ·) ?_)
  unfold total
  exact Finset.sum_congr rfl fun k _ => blk_map m ρ c t (ix3 (j 0) c' k) _ he0

/-- An index of the result is in point `t`'s block iff its row is one of `8t … 8t + 7`. -/
theorem mem_blk_pool (t : Fin cfg0.N) (i : S32x512.Idx) :
    i ∈ ((cfg0.win 5).blk t).view.set ↔ ∀ a : Fin 2, win0_5.index t a * S8x512.size a ≤ (i a).val ∧ (i a).val < win0_5.index t a * S8x512.size a + S8x512.size a := by
  show i ∈ ((View.whole main_v5).slice (win0_5.rect t)).set ↔ _
  rw [View.set_slice_whole, Rect.mem_set_unit]
  exact Iff.rfl

/-- The result array after the call: the gates. Row `n` is written back by point `n / 8`. -/
theorem final_pool (c : Dev nD) : (dat0 (V1 m ρ) c).arrAt 5 cfg0.N = gatesOf m c :=
  (dat0 (V1 m ρ) c).arrAt_eq_of_cover 5 (gatesOf m c) (fun t _ => flushed_pool m ρ c t) fun i => by
    have hN : cfg0.N = 4 := N_0
    have hi0 : (i 0).val < 32 := (i 0).isLt
    have hi1 : (i 1).val < 512 := (i 1).isLt
    refine ⟨⟨(i 0).val / 8, by rw [hN]; omega⟩, flush0_5 _, ?_⟩
    rw [mem_blk_pool]
    obtain ⟨-, -, -, -, -, -, -, -, -, -, -, h0, h1⟩ := pool_idx ⟨(i 0).val / 8, by rw [hN]; omega⟩
    intro a
    match a with
    | ⟨0, _⟩ =>
      show win0_5.index _ (0 : Fin 2) * 8 ≤ (i 0).val ∧ (i 0).val < win0_5.index _ (0 : Fin 2) * 8 + 8
      rw [h0]; dsimp only; omega
    | ⟨1, _⟩ =>
      show win0_5.index _ (1 : Fin 2) * 512 ≤ (i 1).val ∧ (i 1).val < win0_5.index _ (1 : Fin 2) * 512 + 512
      rw [h1]; omega

end Cert.ReferenceIdeal.RValue

end
-- ==== Proof.RScaleEntry.lean ====
/-
  The arrays the reference's second call finds, read at an index.

  Between the two calls the host flattens twice more: the feature map to a [16384, 1024] matrix — one row per
  (sample, channel) pair, row `r` being sample `r / 512`, channel `r % 512`, and column `k` the position at row `k / 32`,
  column `k % 32` of the map — and the first call's [32, 512] result to a [16384, 1] column, entry `r` the gate of that
  same pair. The first call left the gates in its result array, so the column holds the gates.
-/
import proofs.«134633_g2000103765949958_pallasbulk_761_9_alg».proof.Proof.RPoolValue

noncomputable section

open Idealize.ShloMosaic Idealize.ShloMosaic.TcCoe Idealize.SL.Sem Idealize.ShloMosaic.ValueIdx
open Idealize.ShloMosaic.Pipeline (Dat)
open Cert.SqueezeExcite (rowOf colOf)

namespace Cert.ReferenceIdeal.RValue

open Cert.ReferenceIdeal Cert.ReferenceIdeal.Gen

variable (m : (ℓ : Loc nD τ sig) → Buf (Elt Ideal) ℓ) (ρ : Dev nD → PrngReg)

/-- The sample of row `r` of the flattened matrix. -/
def sampleOf (r : Fin 16384) : Fin 32 := ⟨r.val / 512, by have := r.isLt; omega⟩
/-- Its channel. -/
def chanOf (r : Fin 16384) : Fin 512 := ⟨r.val % 512, Nat.mod_lt _ (by decide)⟩

theorem sampleOf_val (r : Fin 16384) : (sampleOf r).val = r.val / 512 := rfl
theorem chanOf_val (r : Fin 16384) : (chanOf r).val = r.val % 512 := rfl

/-- The first call does not touch the feature map: after it the map is as launched. -/
theorem map_kept (c : Dev nD) : W2 m ρ c (Proc.devRef .tc main_arg0) = m ((c : Thread nD τ).loc main_arg0) := by
  rw [W2_of_ne m ρ c main_arg0 (by decide)]
  show StableHlo.after hostOps0 (W0 m ρ c) (Proc.devRef .tc main_arg0) = _
  after_results
  all_goals rfl

theorem entry_rows (c : Dev nD) :
    (V3 m ρ c main_v6 : S16384x1024.Idx → Elt Ideal .f32)
      = shapeCast S16384x1024 (m ((c : Thread nD τ).loc main_arg0)) shapeCasts_S32x512x32x32_S16384x1024 := by
  show StableHlo.after hostOps1 (W2 m ρ c) (Proc.devRef .tc main_v6) = _
  after_results
  rw [map_kept]
  rfl

theorem entry_gcol (c : Dev nD) :
    (V3 m ρ c main_v7 : S16384x1.Idx → Elt Ideal .f32)
      = shapeCast S16384x1 (gatesOf m c) shapeCasts_S32x512_S16384x1 := by
  show StableHlo.after hostOps1 (W2 m ρ c) (Proc.devRef .tc main_v7) = _
  after_results
  rw [show W2 m ρ c (Proc.devRef .tc main_v5) = (dat0 (V1 m ρ) c).arrAt 5 cfg0.N from W2_arr m ρ c 5, final_pool]
  rfl

/-- Row `r`, column `k` of the flattened matrix is the map at (sample, channel, row, column). -/
theorem entry_rows_apply (c : Dev nD) (r : Fin 16384) (k : Fin 1024) :
    (V3 m ρ c main_v6 : S16384x1024.Idx → Elt Ideal .f32) (ix2 r k)
      = (m ((c : Thread nD τ).loc main_arg0) : S32x512x32x32.Idx → Elt Ideal .f32) (ix4 (sampleOf r) (chanOf r) (rowOf k) (colOf k)) := by
  rw [entry_rows]
  refine shapeCast_apply _ _ (ix2 r k) (ix4 (sampleOf r) (chanOf r) (rowOf k) (colOf k)) ?_
  rw [Shape.rowMajor_val_four, Shape.rowMajor_val_two]
  show ((r.val / 512 * 512 + r.val % 512) * 32 + k.val / 32) * 32 + k.val % 32 = r.val * 1024 + k.val
  omega

/-- Entry `r` of the column is the gate of row `r`'s sample and channel. -/
theorem entry_gcol_apply (c : Dev nD) (r : Fin 16384) (z : Fin 1) :
    (V3 m ρ c main_v7 : S16384x1.Idx → Elt Ideal .f32) (ix2 r z) = gatesOf m c (ix2 (sampleOf r) (chanOf r)) := by
  rw [entry_gcol]
  refine shapeCast_apply _ _ (ix2 r z) (ix2 (sampleOf r) (chanOf r)) ?_
  rw [Shape.rowMajor_val_two, Shape.rowMajor_val_two]
  show r.val / 512 * 512 + r.val % 512 = r.val * 1 + z.val
  have := z.isLt
  omega

end Cert.ReferenceIdeal.RValue

end
-- ==== Proof.RScaleValue.lean ====
/-
  What the reference's second call leaves in its result array: every entry of the map times its gate.

  The call's grid has sixteen points; point `t` stages rows `1024t … 1024t + 1023` of the flattened [16384, 1024] map
  and of the [16384, 1] column of gates, multiplies each row of the map by its row's one entry of the column, and
  writes the products back to the same rows of the [16384, 1024] result. Row `r` is sample `r / 512`, channel `r % 512`,
  so the result ends holding, at (r, k), the map at that sample, channel and position `k` times that pair's gate.
-/
import proofs.«134633_g2000103765949958_pallasbulk_761_9_alg».proof.Proof.RScaleEntry

noncomputable section

open Idealize.ShloMosaic Idealize.ShloMosaic.TcCoe Idealize.SL.Sem Idealize.ShloMosaic.ValueIdx
open Idealize.ShloMosaic.Pipeline (Dat)
open Cert.SqueezeExcite (rowOf colOf)

namespace Cert.ReferenceIdeal.RValue

open Cert.ReferenceIdeal Cert.ReferenceIdeal.Gen

variable (m : (ℓ : Loc nD τ sig) → Buf (Elt Ideal) ℓ) (ρ : Dev nD → PrngReg)

/-- The body's product at an index: the map's entry times its row's entry of the one-column operand. -/
theorem scale_apply (x0 : Vec Ideal S1024x1024 .f32) (x1 : Vec Ideal S1024x1 .f32) (p q : Fin 1024) :
    k1_pay1 (F := Ideal) x0 x1 (ix2 p q) = x0 (ix2 p q) * x1 (ix2 p 0) := by
  unfold k1_pay1
  simp only [shapeCast_self]
  show x0 (ix2 p q) * broadcastTo S1024x1024 x1 broadcasts_S1024x1_S1024x1024 (ix2 p q) = _
  refine congrArg (x0 (ix2 p q) * ·) ?_
  exact broadcastTo_apply x1 broadcasts_S1024x1_S1024x1024 (ix2 p q) (ix2 p 0) fun a => by
    match a with
    | ⟨0, _⟩ => rfl
    | ⟨1, _⟩ => rfl

/-- The three windows' blocks all move with the point along the row axis. Decided over the sixteen points. -/
theorem scale_idx : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

theorem blk_rows (c : Dev nD) (t : Fin cfg1.N) (y : S1024x1024.Idx) (r : Fin 16384) (hr : r.val = 1024 * t.val + (y 0).val) :
    (iblk1 (V3 m ρ) c 0 t : S1024x1024.Idx → Elt Ideal .f32) y
      = (m ((c : Thread nD τ).loc main_arg0) : S32x512x32x32.Idx → Elt Ideal .f32) (ix4 (sampleOf r) (chanOf r) (rowOf (y 1)) (colOf (y 1))) := by
  unfold iblk1
  rw [View.read_apply]
  show (V3 m ρ c main_v6 : S16384x1024.Idx → Elt Ideal .f32) (((cfg1.win 0).blk t).view.emb y) = _
  have e : ((cfg1.win 0).blk t).view.emb y = ix2 r (y 1) := by
    obtain ⟨h0, h1, -⟩ := scale_idx t
    funext a
    apply Fin.ext
    match a with
    | ⟨0, _⟩ => show win1_0.index t (0 : Fin 2) * 1024 + 1 * (y 0).val = r.val; rw [h0]; omega
    | ⟨1, _⟩ => show win1_0.index t (1 : Fin 2) * 1024 + 1 * (y 1).val = (y 1).val; rw [h1]; omega
  rw [e]
  exact entry_rows_apply m ρ c r (y 1)

theorem blk_gcol (c : Dev nD) (t : Fin cfg1.N) (y : S1024x1.Idx) (r : Fin 16384) (hr : r.val = 1024 * t.val + (y 0).val) :
    (iblk1 (V3 m ρ) c 1 t : S1024x1.Idx → Elt Ideal .f32) y = gatesOf m c (ix2 (sampleOf r) (chanOf r)) := by
  unfold iblk1
  rw [View.read_apply]
  show (V3 m ρ c main_v7 : S16384x1.Idx → Elt Ideal .f32) (((cfg1.win 1).blk t).view.emb y) = _
  have e : ((cfg1.win 1).blk t).view.emb y = ix2 r (y 1) := by
    obtain ⟨-, -, h0, h1, -⟩ := scale_idx t
    funext a
    apply Fin.ext
    match a with
    | ⟨0, _⟩ => show win1_1.index t (0 : Fin 2) * 1024 + 1 * (y 0).val = r.val; rw [h0]; omega
    | ⟨1, _⟩ => show win1_1.index t (1 : Fin 2) * 1 + 1 * (y 1).val = (y 1).val; rw [h1]; omega
  rw [e]
  exact entry_gcol_apply m ρ c r (y 1)

/-- The [16384, 1024] matrix of the map's entries times their gates. -/
def scaledRows (x : Cert.SqueezeExcite.SX.Idx → EReal) (g : S32x512.Idx → EReal) : S16384x1024.Idx → EReal :=
  fun i => x (ix4 (sampleOf (i 0)) (chanOf (i 0)) (rowOf (i 1)) (colOf (i 1))) * g (ix2 (sampleOf (i 0)) (chanOf (i 0)))

/-- What point `t` writes back is rows `1024t … 1024t + 1023` of that matrix. -/
theorem flushed_scale (c : Dev nD) (t : Fin cfg1.N) :
    (dat1 (V3 m ρ) c).flushed 2 t
      = ((cfg1.win 2).blk t).view.read (Elt Ideal) (scaledRows (m ((c : Thread nD τ).loc main_arg0)) (gatesOf m c)) := by
  show (cfg1.win 2).cut (grid1.coords t) ((dat1 (V3 m ρ) c).after 2 t) = _
  rw [after1_2]
  unfold out1_2
  rw [View.canon_unit_zero zeros2]
  simp only [View.ld_unit_zero (S := S1024x1024) zeros2, View.ld_unit_zero (S := S1024x1) zeros2]
  obtain ⟨-, -, -, -, h0, h1⟩ := scale_idx t
  funext j
  have he0 : ((((cfg1.win 2).blk t).view.emb j) 0).val = 1024 * t.val + (j 0).val := by
    show win1_2.index t (0 : Fin 2) * 1024 + 1 * (j 0).val = _
    rw [h0]; omega
  have he1 : (((cfg1.win 2).blk t).view.emb j) 1 = j 1 := by
    apply Fin.ext
    show win1_2.index t (1 : Fin 2) * 1024 + 1 * (j 1).val = _
    rw [h1]; omega
  show k1_pay1 (F := Ideal) (iblk1 (V3 m ρ) c 0 t) (iblk1 (V3 m ρ) c 1 t) j
    = scaledRows _ _ (((cfg1.win 2).blk t).view.emb j)
  refine ((congrArg (k1_pay1 (F := Ideal) (iblk1 (V3 m ρ) c 0 t) (iblk1 (V3 m ρ) c 1 t)) (eq_ix2 j)).trans
    (scale_apply (iblk1 (V3 m ρ) c 0 t) (iblk1 (V3 m ρ) c 1 t) (j 0) (j 1))).trans ?_
  unfold scaledRows
  rw [he1]
  exact congrArg₂ (· * ·) (blk_rows m ρ c t (ix2 (j 0) (j 1)) _ he0) (blk_gcol m ρ c t (ix2 (j 0) 0) _ he0)

theorem mem_blk_scale (t : Fin cfg1.N) (i : S16384x1024.Idx) :
    i ∈ ((cfg1.win 2).blk t).view.set ↔ ∀ a : Fin 2, win1_2.index t a * S1024x1024.size a ≤ (i a).val ∧ (i a).val < win1_2.index t a * S1024x1024.size a + S1024x1024.size a := by
  show i ∈ ((View.whole main_v8).slice (win1_2.rect t)).set ↔ _
  rw [View.set_slice_whole, Rect.mem_set_unit]
  exact Iff.rfl

/-- The result array after the call. Row `r` is written back by point `r / 1024`. -/
theorem final_scale (c : Dev nD) :
    (dat1 (V3 m ρ) c).arrAt 2 cfg1.N = scaledRows (m ((c : Thread nD τ).loc main_arg0)) (gatesOf m c) :=
  (dat1 (V3 m ρ) c).arrAt_eq_of_cover 2 _ (fun t _ => flushed_scale m ρ c t) fun i => by
    have hN : cfg1.N = 16 := N_1
    have hi0 : (i 0).val < 16384 := (i 0).isLt
    have hi1 : (i 1).val < 1024 := (i 1).isLt
    refine ⟨⟨(i 0).val / 1024, by rw [hN]; omega⟩, flush1_2 _, ?_⟩
    rw [mem_blk_scale]
    obtain ⟨-, -, -, -, h0, h1⟩ := scale_idx ⟨(i 0).val / 1024, by rw [hN]; omega⟩
    intro a
    match a with
    | ⟨0, _⟩ =>
      show win1_2.index _ (0 : Fin 2) * 1024 ≤ (i 0).val ∧ (i 0).val < win1_2.index _ (0 : Fin 2) * 1024 + 1024
      rw [h0]; dsimp only; omega
    | ⟨1, _⟩ =>
      show win1_2.index _ (1 : Fin 2) * 1024 ≤ (i 1).val ∧ (i 1).val < win1_2.index _ (1 : Fin 2) * 1024 + 1024
      rw [h1]; omega

end Cert.ReferenceIdeal.RValue

end
-- ==== Proof.RExit.lean ====
/-
  The reference's result array at its last boundary: the specification's function of the arguments.

  After the second call the host reshapes the [16384, 1024] matrix of products back to [32, 512, 32, 32]: entry
  (n, c, h, w) is the matrix at row `512 n + c`, column `32 h + w` — the same row-major position. That row is sample
  `n`, channel `c`, that column is map row `h`, column `w`, so the entry is `x n c h w` times the gate of (n, c): the
  specification's result.
-/
import proofs.«134633_g2000103765949958_pallasbulk_761_9_alg».proof.Proof.RScaleValue

noncomputable section

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.SqueezeExcite (rowOf colOf)

namespace Cert.ReferenceIdeal.RValue

open Cert.ReferenceIdeal Cert.ReferenceIdeal.Gen

local notation "𝕄" => MT nD τ sig Unit (Elt Ideal) ℕ (UR sig nD τ) ℕ

variable (m : (ℓ : Loc nD τ sig) → Buf (Elt Ideal) ℓ) (ρ : Dev nD → PrngReg)

theorem scaledRows_apply (x : Cert.SqueezeExcite.SX.Idx → EReal) (g : S32x512.Idx → EReal) (r : Fin 16384) (k : Fin 1024) :
    scaledRows x g (ix2 r k) = x (ix4 (sampleOf r) (chanOf r) (rowOf k) (colOf k)) * g (ix2 (sampleOf r) (chanOf r)) := rfl

/-- The result array at the last boundary: the specification's result of the arguments as launched. -/
theorem exit_result (c : Dev nD) :
    (W5 m ρ c (Proc.devRef .tc main_v9) : S32x512x32x32.Idx → Elt Ideal .f32)
      = Cert.SqueezeExcite.result (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) := by
  have h : (W5 m ρ c (Proc.devRef .tc main_v9) : S32x512x32x32.Idx → Elt Ideal .f32)
      = shapeCast S32x512x32x32 (scaledRows (m ((c.tc : Thread nD τ).loc main_arg0)) (gatesOf m c)) shapeCasts_S16384x1024_S32x512x32x32 := by
    show StableHlo.after hostOps2 (W4 m ρ c) (Proc.devRef .tc main_v9) = _
    after_results
    rw [show W4 m ρ c (Proc.devRef .tc main_v8) = (dat1 (V3 m ρ) c).arrAt 2 cfg1.N from W4_arr m ρ c 2, final_scale]
    rfl
  rw [h]
  funext i
  obtain ⟨n, ch, hh, w, rfl⟩ : ∃ (n : Fin 32) (ch : Fin 512) (hh w : Fin 32), i = ix4 n ch hh w := ⟨i 0, i 1, i 2, i 3, eq_ix4 i⟩
  have hn := n.isLt
  have hc := ch.isLt
  have h2 := hh.isLt
  have h3 := w.isLt
  refine (shapeCast_apply _ _ (ix4 n ch hh w)
    (ix2 (⟨n.val * 512 + ch.val, by omega⟩ : Fin 16384) (⟨hh.val * 32 + w.val, by omega⟩ : Fin 1024)) ?_).trans ?_
  · rw [Shape.rowMajor_val_two, Shape.rowMajor_val_four]
    show (n.val * 512 + ch.val) * 1024 + (hh.val * 32 + w.val) = ((n.val * 512 + ch.val) * 32 + hh.val) * 32 + w.val
    omega
  · have e1 : sampleOf (⟨n.val * 512 + ch.val, by omega⟩ : Fin 16384) = n := Fin.ext (by show (n.val * 512 + ch.val) / 512 = n.val; omega)
    have e2 : chanOf (⟨n.val * 512 + ch.val, by omega⟩ : Fin 16384) = ch := Fin.ext (by show (n.val * 512 + ch.val) % 512 = ch.val; omega)
    have e3 : rowOf (⟨hh.val * 32 + w.val, by omega⟩ : Fin 1024) = hh := Fin.ext (by show (hh.val * 32 + w.val) / 32 = hh.val; omega)
    have e4 : colOf (⟨hh.val * 32 + w.val, by omega⟩ : Fin 1024) = w := Fin.ext (by show (hh.val * 32 + w.val) % 32 = w.val; omega)
    rw [scaledRows_apply, e1, e2, e3, e4]
    rfl

end Cert.ReferenceIdeal.RValue

end
-- ==== Proof.RRun.lean ====
/-
  The reference's run, read: every weakly fair execution terminates with the result array at the specification's
  function of the arguments, and the arguments as launched.

  The program is five segments in a row: a stretch of host operations, the pooling call, a second stretch, the
  scaling call, a last stretch. The library's theorem for such a program asks for a state of the core between any two
  segments, each implied by what the segment before leaves. Between segments the core holds every buffer that outlives
  the calls at that boundary's contents, its generator register at some value, and owes nothing; the boundaries'
  contents are the fold through @main that the imported frame module names. What is proved here: the launch gives the
  first such state; the last one, read against a final memory, says every such buffer holds the last boundary's
  contents; and of those contents the result array's are the specification's result, the arguments' their launch values.
-/
import proofs.«134633_g2000103765949958_pallasbulk_761_9_alg».proof.Proof.RExit

noncomputable section

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.ReferenceIdeal.RValue

open Cert.ReferenceIdeal Cert.ReferenceIdeal.Gen

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every execution ends with every buffer that outlives the calls at the last boundary's contents. -/
theorem run_boundary : θ_run (defs (F := Ideal)) (onTc (τ := τ) (main (F := Ideal))) ⟨m, fun _ => 0, ρ⟩
    (fun r => ∀ c : Dev nD, ∀ b ∈ Pipeline.ucRefs τ sig, r.2.mem (((c : Thread nD τ)).1, b) = W5 m ρ c b) := by
  refine Pipeline.θ_run_regions_kit (pcfgs (F := Ideal)) adm (pdats m ρ) () cellOf_inj emb₁ defs₀ 𝒱₀ L lv m ρ main (segs m ρ)
    (fun c Q => ?hmain) ?hnd (O₀ := 0) (hL := fun _ _ => rfl) (G := fun _ => iprop(emp))
    (u₀ := initOf (Pipeline.cells cfgs cellOf_inj) (Pipeline.launchToks cfgs cellOf_inj)) (hu₀ := ?hu)
    (T₀ := fun c => iprop(StableHlo.held (c : Thread nD τ) (Pipeline.ucRefs τ sig) (W0 m ρ c) ∗ R c)) (Tₙ := Tₙ m ρ)
    (hch := ?hch) (hinit := ?hinit)
    (QY := fun c s => ∀ b ∈ Pipeline.ucRefs τ sig, s.mem (((c : Thread nD τ)).1, b) = W5 m ρ c b)
    (hfin := fun c s' => ?hfin) (hQ := fun s h => h)
  case hmain =>
    -- @main is the run of its segments
    rw [main_run m ρ c]
  case hnd =>
    -- the two calls are entered once each
    rw [show Pipeline.Seg.pipes (segs m ρ) = [(0 : Fin 2), (1 : Fin 2)] from rfl]
    decide
  case hu =>
    -- the launch's ghost element is the library's; no core needs anything beside it
    have nothing_each : (BI.emp : sProp 𝕄) ⊢ bigSep Finset.univ (fun _ : Dev nD => (BI.emp : sProp 𝕄)) := by
      rw [BI.bigSep_emp_const]
    -- owning the launch element is owning its image in the certificate's resource algebra: the same thing, unfolded
    have as_embedded : (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) := .rfl
    iintro Helem
    imodintro
    isplitl [Helem]
    · iapply as_embedded
      iexact Helem
    · iapply nothing_each
      iempintro
  case hch =>
    -- each segment is entered from what the one before leaves; after the last stretch the parts are regrouped so
    -- that "owes nothing" stands beside the rest
    refine ⟨fun _ => .rfl, fun _ => .rfl, fun _ => .rfl, fun _ => .rfl, fun _ => .rfl, fun c => ?_⟩
    show iprop(StableHlo.held (c : Thread nD τ) (Pipeline.ucRefs τ sig) (W5 m ρ c) ∗ R c)
      ⊢ iprop(Tₙ m ρ c ∗ ∃ W, owes (c : Thread nD τ) (0 : CellTallies nD τ sig Unit) W)
    iintro ⟨Hbufs, Hreg, Howes⟩
    isplitr [Howes]
    · isplitl [Hbufs]
      · iexact Hbufs
      · iexact Hreg
    · iexact Howes
  case hinit =>
    -- from what the launch deals a core: its buffers at the launch memory, its generator register, nothing owed
    refine Pipeline.initEach L lv fun c => ?_
    rw [show unscopedBufs c (fun b => m ((c : Thread nD τ).loc b))
        = StableHlo.held (c : Thread nD τ) (Pipeline.ucRefs τ sig) (W0 m ρ c) from Pipeline.unscopedBufs_held c (W0 m ρ c)]
    iintro ⟨⟨Hbufs, -, Howes, -, Hreg, -⟩, -⟩
    imodintro
    isplitl [Hbufs]
    · iexact Hbufs
    isplitl [Hreg]
    · iexists _
      iexact Hreg
    · iexists ∅
      iexact Howes
  case hfin =>
    -- every buffer the last state holds, read against the final memory
    show iprop(iprop(StableHlo.held (c : Thread nD τ) (Pipeline.ucRefs τ sig) (W5 m ρ c) ∗ ∃ r, prngReg c r) ∗ SI s') ⊢ _
    unfold StableHlo.held
    iintro ⟨⟨Hbufs, -⟩, Hstate⟩
    imodintro
    iapply (pointsTo_read_all (Pipeline.ucRefs τ sig) (fun b => (((c : Thread nD τ)).1, b)) (W5 m ρ c) s')
    isplitl [Hbufs]
    · iexact Hbufs
    · iexact Hstate

/-- Every weakly fair execution of the reference terminates with its result array at the specification's result of the
    arguments, and the arguments as launched. -/
theorem run : θ_run (defs (F := Ideal)) (onTc (τ := τ) (main (F := Ideal))) ⟨m, fun _ => 0, ρ⟩ (fun r => ∀ c : Dev nD,
      r.2.mem ((c.tc : Thread nD τ).loc main_v9) = Cert.SqueezeExcite.result (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run (defs (F := Ideal)) _ _).mono (fun r h c =>
    ⟨(h c _ (mem_uc main_v9 (by decide))).trans (exit_result m ρ c),
     (h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c),
     (h c _ (mem_uc main_arg4 (by decide))).trans (W5_main_arg4 m ρ c)⟩) (run_boundary m ρ)

end Cert.ReferenceIdeal.RValue

end
-- ==== Proof.lean ====
/-
  A squeeze-and-excitation layer, fused into one kernel call, against a reference that makes two.

  For a feature map `x : [32, 512, 32, 32]` and two dense layers (`w1 : [32, 512]`, `b1 : [32]`; `w2 : [512, 32]`,
  `b2 : [512]`) both programs compute, at (n, c, h, w),

    x n c h w · logistic (Σ_r max (Σ_c' ((Σ_k x n c' k) · 2⁻¹⁰) · w1 r c' + b1 r) 0 · w2 c r + b2 c),

  the sum over `k` running over the 1024 positions of the map (`Cert.SqueezeExcite.result`, Proof/Spec.lean).

  The kernel moves the channel axis last, flattens (sample, row, column) to 32768 rows, and in each of 8 grid steps
  takes four samples' rows: sums each sample's 1024 rows per channel, runs the two layers on the four means, and
  multiplies every row by its sample's gates; then it undoes the layout. The reference first runs a call over four
  blocks of eight samples that leaves the [32, 512] gates (clearing an accumulator, adding each channel's lane sum to
  it, and running the layers on the scaled accumulator), then a second call that multiplies the map, flattened to one
  row per (sample, channel), by the column of gates. On the extended reals a cleared accumulator plus a sum is the sum,
  and both programs sum the same 1024 entries in the same order, so nothing beyond `0 + s = s` is needed: the
  precondition is never opened. The idealization rewrote no operation, so the kernel's idealization is its own text.

  The kernel's run is read in Proof/KPay, KHost, KBlocks, KRun; the reference's in Proof/RPoolPiece, RPoolPay,
  RPoolEntry, RPoolValue (first call), RScaleEntry, RScaleValue (second call), RExit, RRun.
-/
import proofs.«134633_g2000103765949958_pallasbulk_761_9_alg».proof.Defs
import proofs.«134633_g2000103765949958_pallasbulk_761_9_alg».proof.Proof.Gen.Kernel
import proofs.«134633_g2000103765949958_pallasbulk_761_9_alg».proof.Proof.Gen.Kernel.Frame
import proofs.«134633_g2000103765949958_pallasbulk_761_9_alg».proof.Proof.Gen.KernelIdeal
import proofs.«134633_g2000103765949958_pallasbulk_761_9_alg».proof.Proof.Gen.KernelIdeal.Frame
import proofs.«134633_g2000103765949958_pallasbulk_761_9_alg».proof.Proof.Gen.ReferenceIdeal
import proofs.«134633_g2000103765949958_pallasbulk_761_9_alg».proof.Proof.Gen.ReferenceIdeal.Frame
import proofs.«134633_g2000103765949958_pallasbulk_761_9_alg».proof.Proof.Gen.Pre_finite_inputs
import proofs.«134633_g2000103765949958_pallasbulk_761_9_alg».proof.Proof.KRun
import proofs.«134633_g2000103765949958_pallasbulk_761_9_alg».proof.Proof.RRun
import Idealize.ShloMosaic.Adequacy
import Idealize.ShloMosaic.Init

noncomputable section

namespace Cert.Proof

open Idealize.ShloMosaic Idealize.SL.Sem

/-- The kernel as printed runs and leaves its arguments alone. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- So does the reference. -/
theorem frame_reference_ideal : Cert.frame_ReferenceIdeal := fun m ρ _ => Cert.ReferenceIdeal.Gen.frame m ρ

/-- The idealization rewrote nothing. -/
theorem preserves : Cert.preserves_Kernel_KernelIdeal := trivial

/-- From memories that agree on the five arguments both programs end with their result arrays at the same function
    of those arguments. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.RValue.run m' ρ')
  rw [(hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
